-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 83
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S128x128, .bf16⟩
  | .hbm, ⟨41, _⟩ => ⟨S128x128, .bf16⟩
  | .hbm, ⟨42, _⟩ => ⟨S1x128, .f32⟩
  | .hbm, ⟨43, _⟩ => ⟨S50000x128, .f32⟩
  | .hbm, ⟨44, _⟩ => ⟨S50000x128, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .bf16⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S128x128, .bf16⟩
  | .hbm, ⟨60, _⟩ => ⟨S128x128, .bf16⟩
  | .hbm, ⟨61, _⟩ => ⟨S1x128, .f32⟩
  | .hbm, ⟨62, _⟩ => ⟨S50000x128, .f32⟩
  | .hbm, ⟨63, _⟩ => ⟨S128x64, .bf16⟩
  | .hbm, ⟨64, _⟩ => ⟨S50000x64, .f32⟩
  | .hbm, ⟨65, _⟩ => ⟨S50000x64, .bf16⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .bf16⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S128x64, .bf16⟩
  | .hbm, ⟨81, _⟩ => ⟨S1x64, .f32⟩
  | .hbm, ⟨82, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .bf16⟩
  | .local _ .vmem, ⟨25, _⟩ => ⟨S5000x64, .f32⟩
  | .local _ .vmem, ⟨26, _⟩ => ⟨S5000x64, .f32⟩
  | .local _ .vmem, ⟨27, _⟩ => ⟨S5000x128, .f32⟩
  | .local _ .vmem, ⟨28, _⟩ => ⟨S5000x128, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S128x64, .bf16⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .bf16 = 32 ∨ (Rect.block (s := S128x64) S128x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_cst : Ref sig .tc := ⟨.hbm, 67, rfl⟩
abbrev main_call1_v0 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  Mean-aggregation graph convolution layers (GraphSAGE), entry by entry, on the extended reals.

  A node array `X` of `n` rows and `K` columns, an edge list given as two columns of 32-bit words (the source row
  and the destination row of each of `E` edges), and per layer two weight matrices and a bias.  One layer is

      out[p, q] = Σ_k X[p, k] · Ws[k, q]  +  Σ_k mean[p, k] · Wn[k, q]  +  b[q],

  where `mean[p, ·]` is the sum of the rows `X[src e, ·]` over the edges `e` whose destination is `p`, divided
  by the in-degree of `p` clamped below at 1.  Two spellings of that quotient are stated here: the product with
  the reciprocal `1 / deg` computed once (`rowAtK`), and the quotient by `deg` itself (`rowAtR`).  The last layer is
  also stated with the neighbour weight applied BEFORE the aggregation (`projK`, `outK`): the rows are first
  multiplied by `Wn`, then summed over the incoming edges, then scaled by `1 / deg`.
-/
import Idealize.ShloMosaic.PureOps.Ideal
import Idealize.ShloMosaic.Lib.ValueIdx

noncomputable section

open scoped BigOperators

namespace Cert.Sage

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Row (a : Nat) : Type := (⟨1, ![a]⟩ : Shape).Idx → EReal
/-- A column of `E` 32-bit words. -/
abbrev Col (E : Nat) : Type := (⟨2, ![E, 1]⟩ : Shape).Idx → BitVec 32

variable {n K d E : Nat}

/-- One entry of a layer before its activation, the mean taken as the product of the neighbour sum `AGG` with the
    reciprocal degree `INV` (a column), the bias a one-row matrix. -/
def rowAtK (X AGG : Mat n K) (INV : Mat n 1) (Ws Wn : Mat K d) (B : Mat 1 d) (p : Fin n) (q : Fin d) : EReal :=
  (∑ k : Fin K, X (ix2 p k) * Ws (ix2 k q)) + (∑ k : Fin K, (AGG (ix2 p k) * INV (ix2 p 0)) * Wn (ix2 k q)) + B (ix2 0 q)

/-- A layer with the rectifier, the mean as a product with the reciprocal degree. -/
def layerK (X AGG : Mat n K) (INV : Mat n 1) (Ws Wn : Mat K d) (B : Mat 1 d) : Mat n d :=
  fun i => max (rowAtK X AGG INV Ws Wn B (i 0) (i 1)) 0

/-- One entry of a layer before its activation, the mean taken as the quotient of the neighbour sum `AGG` by the
    degree `DEG` (a column), the bias a vector. -/
def rowAtR (X AGG : Mat n K) (DEG : Mat n 1) (Ws Wn : Mat K d) (b : Row d) (p : Fin n) (q : Fin d) : EReal :=
  (∑ k : Fin K, X (ix2 p k) * Ws (ix2 k q)) + (∑ k : Fin K, Ideal.div (AGG (ix2 p k)) (DEG (ix2 p 0)) * Wn (ix2 k q)) + b (ix1 q)

/-- A layer with the rectifier, the mean as a quotient by the degree. -/
def layerR (X AGG : Mat n K) (DEG : Mat n 1) (Ws Wn : Mat K d) (b : Row d) : Mat n d :=
  fun i => max (rowAtR X AGG DEG Ws Wn b (i 0) (i 1)) 0

/-- The last layer (no rectifier), the mean as a quotient by the degree. -/
def outR (X AGG : Mat n K) (DEG : Mat n 1) (Ws Wn : Mat K d) (b : Row d) : Mat n d :=
  fun i => rowAtR X AGG DEG Ws Wn b (i 0) (i 1)

/-- The rows multiplied by the neighbour weight, before any aggregation. -/
def projK (H : Mat n K) (W : Mat K d) : Mat n d :=
  fun i => ∑ k : Fin K, H (ix2 (i 0) k) * W (ix2 k (i 1))

/-- One entry of the last layer when the neighbour sum `AGG` is already of projected rows: the self term, plus the
    neighbour sum scaled by the reciprocal degree, plus the bias. -/
def outAtK (H : Mat n K) (AGG : Mat n d) (INV : Mat n 1) (Ws : Mat K d) (B : Mat 1 d) (p : Fin n) (q : Fin d) : EReal :=
  ((∑ k : Fin K, H (ix2 p k) * Ws (ix2 k q)) + AGG (ix2 p q) * INV (ix2 p 0)) + B (ix2 0 q)

/-- The last layer with the projection before the aggregation. -/
def outK (H : Mat n K) (AGG : Mat n d) (INV : Mat n 1) (Ws : Mat K d) (B : Mat 1 d) : Mat n d :=
  fun i => outAtK H AGG INV Ws B (i 0) (i 1)

/-- The row a source word addresses: the word read as a signed integer and clamped into the rows that exist. -/
def rowOf (hn : 0 < n) (srcc : Col E) (e : Fin E) : Fin n :=
  ⟨min (srcc (ix2 e (0 : Fin 1))).toInt.toNat (n - 1), by omega⟩

/-- The neighbour sum: entry `(p, q)` is the sum over the edges whose destination word reads `p` of the source
    row's entry `q` (from zero). -/
def segSum (hn : 0 < n) (dstc srcc : Col E) (H : Mat n d) : Mat n d :=
  fun i => 0 + ∑ e : Fin E, if (dstc (ix2 e (0 : Fin 1))).toInt = (((i 0).val : ℕ) : ℤ) then H (ix2 (rowOf hn srcc e) (i 1)) else 0

theorem layerK_apply (X AGG : Mat n K) (INV : Mat n 1) (Ws Wn : Mat K d) (B : Mat 1 d) (p : Fin n) (q : Fin d) :
    layerK X AGG INV Ws Wn B (ix2 p q) = max (rowAtK X AGG INV Ws Wn B p q) 0 := rfl
theorem layerR_apply (X AGG : Mat n K) (DEG : Mat n 1) (Ws Wn : Mat K d) (b : Row d) (p : Fin n) (q : Fin d) :
    layerR X AGG DEG Ws Wn b (ix2 p q) = max (rowAtR X AGG DEG Ws Wn b p q) 0 := rfl
theorem outR_apply (X AGG : Mat n K) (DEG : Mat n 1) (Ws Wn : Mat K d) (b : Row d) (p : Fin n) (q : Fin d) :
    outR X AGG DEG Ws Wn b (ix2 p q) = rowAtR X AGG DEG Ws Wn b p q := rfl
theorem projK_apply (H : Mat n K) (W : Mat K d) (p : Fin n) (q : Fin d) :
    projK H W (ix2 p q) = ∑ k : Fin K, H (ix2 p k) * W (ix2 k q) := rfl
theorem outK_apply (H : Mat n K) (AGG : Mat n d) (INV : Mat n 1) (Ws : Mat K d) (B : Mat 1 d) (p : Fin n) (q : Fin d) :
    outK H AGG INV Ws B (ix2 p q) = outAtK H AGG INV Ws B p q := rfl
theorem segSum_apply (hn : 0 < n) (dstc srcc : Col E) (H : Mat n d) (p : Fin n) (q : Fin d) :
    segSum hn dstc srcc H (ix2 p q) =
      0 + ∑ e : Fin E, if (dstc (ix2 e (0 : Fin 1))).toInt = ((p.val : ℕ) : ℤ) then H (ix2 (rowOf hn srcc e) q) else 0 := rfl

end Cert.Sage

end
-- ==== Proof.KRun.lean ====
/-
  The kernel's run with its result named.

  The program @main is four TensorCore regions among four stretches of host operations.  The generated frame
  certificate runs it segment by segment, keeping the contents of every unscoped buffer at each segment boundary
  (a fold `W0 … W8` from the launch memory), and at the end reads off only the twelve argument arrays.  Here the
  same run is read off at one more buffer: the result array `main_v57`, which at the end holds the last
  boundary's contents `W8` at that buffer.  The twelve argument arrays hold what they held at the launch.
-/
import proofs.«145628_j19851338842541_2_alg».proof.Proof.Gen.KernelIdeal.Frame
import proofs.«145628_j19851338842541_2_alg».proof.Proof.Spec

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's implicit arguments are found by unifying its conclusion with this one, which takes unfolding
-- plain definitions in a metavariable's type
set_option backward.isDefEq.respectTransparency.types false in
/-- At the compiled mesh, from any memory with zero counters, every weakly fair execution of @main on the
    TensorCores terminates, nothing faulting, and in every final state the result array `main_v57` holds the last
    segment boundary's contents at that buffer, while each of the twelve argument arrays holds its launch contents.
    The final thread state holds every unscoped buffer at `W8`; the result buffer is one of them, and each argument
    buffer walks back through the fold to the launch memory. -/
theorem run_named : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.Sage.KRun

end
-- ==== Proof.KChain0.lean ====
/-
  The host stretches of the kernel's program, read as whole-array terms on the extended reals.

  Between its four TensorCore regions the program runs stretches of host operations.  What the regions later read
  from them are a few arrays: the reciprocal in-degree as a column, the neighbour sum of the current rows (a gather
  at the source words followed by a scatter-add at the destination words), the weights after their change of
  float format, and each bias as a one-row matrix.  Each is named here as one term of the operations the stretch
  composes, and each stretch, run from ANY buffer contents `X`, is shown to leave exactly that term at the buffer
  in question, over `X` at the buffers the term reads.  A buffer a stretch does not write keeps its contents.
-/
import proofs.«145628_j19851338842541_2_alg».proof.Proof.Gen.KernelIdeal.Frame
import proofs.«145628_j19851338842541_2_alg».proof.Proof.Spec

set_option maxRecDepth 16384

noncomputable section

namespace Cert.Sage.KChain

open Idealize.ShloMosaic Idealize.ShloMosaic.TcCoe
open Cert.KernelIdeal Cert.KernelIdeal.Gen

/-! ## The host terms -/

/-- The change of float format the weights and the rows go through before a product (the identity on extended reals,
    kept as written). -/
def cvt {s : Shape} (W : FVec Ideal s .f32) : FVec Ideal s .bf16 := truncf .bf16 W bitsLt_bf16_f32

/-- The reciprocal degree as a column: the number of edges into each row (a scatter-add of ones over the destination
    words, from zero), clamped below at one, its reciprocal taken, laid out as a one-column matrix. -/
def invK (dst : Vec Ideal S800000 .i32) : Vec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32))))

/-- The source words as row numbers: a negative word is read from the end (50000 added), laid out as a column. -/
def srcCol (src : Vec Ideal S800000 .i32) : Vec Ideal S800000x1 .i32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour sum of 128-column rows: the rows (in the narrow format) gathered at the source words, widened,
    and added into the rows the destination words address, from zero. -/
def aggK (h : FVec Ideal S50000x128 .f32) (src dst : Vec Ideal S800000 .i32) : Vec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf .f32 (Host.gather gather_S50000x128_S800000x1_S800000x128_1_0_n_n_0_1_1128
      (truncf .bf16 h bitsLt_bf16_f32) (srcCol src)) bitsLt_bf16_f32)

/-- The neighbour sum of 64-column rows. -/
def aggK64 (h : FVec Ideal S50000x64 .f32) (src dst : Vec Ideal S800000 .i32) : Vec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (extf .f32 (Host.gather gather_S50000x64_S800000x1_S800000x64_1_0_n_n_0_1_164
      (truncf .bf16 h bitsLt_bf16_f32) (srcCol src)) bitsLt_bf16_f32)

/-- A bias vector of 128 entries as a one-row matrix. -/
def rowK128 (b : Vec Ideal S128 .f32) : Vec Ideal S1x128 .f32 := shapeCast S1x128 b shapeCasts_S128_S1x128
/-- A bias vector of 64 entries as a one-row matrix. -/
def rowK64 (b : Vec Ideal S64 .f32) : Vec Ideal S1x64 .f32 := shapeCast S1x64 b shapeCasts_S64_S1x64

/-! ## What a stretch does not write -/

/-- The references the first stretch of host operations writes. -/
abbrev wr0 : List (Ref sig .tc) :=
  [main_cst, main_v0, main_cst_0, main_v1, main_v2, main_v3, main_cst_1, main_v4, main_v5, main_cst_2, main_v6, main_v7,
   main_v8, main_v9, main_c, main_v10, main_v11, main_c_3, main_v12, main_v13, main_v14, main_v15, main_v16, main_v17,
   main_cst_4, main_v18, main_v19, main_v20, main_v21, main_v22, main_v23]
/-- The references the second stretch writes. -/
abbrev wr1 : List (Ref sig .tc) :=
  [main_v25, main_c_5, main_v26, main_v27, main_c_6, main_v28, main_v29, main_v30, main_v31, main_v32, main_v33,
   main_cst_7, main_v34, main_v35, main_v36, main_v37, main_v38, main_v39]
/-- The reference the third stretch writes. -/
abbrev wr2 : List (Ref sig .tc) := [main_v41]
/-- The references the fourth stretch writes. -/
abbrev wr3 : List (Ref sig .tc) :=
  [main_v43, main_c_8, main_v44, main_v45, main_c_9, main_v46, main_v47, main_v48, main_v49, main_v50, main_v51,
   main_cst_10, main_v52, main_v53, main_v54, main_v55, main_v56]

/-- A buffer the first stretch does not write keeps its contents across it. -/
theorem keep0 (X : Valuation τ sig (Elt Ideal)) {r : Ref sig .tc} (hr : r ∉ wr0) :
    StableHlo.after (hostOps0 (F := Ideal)) X (Proc.devRef .tc r) = X (Proc.devRef .tc r) :=
  StableHlo.after_of_writes_sub (W := wr0) _ X (by
    simp only [hostOps0, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr
/-- A buffer the second stretch does not write keeps its contents across it. -/
theorem keep1 (X : Valuation τ sig (Elt Ideal)) {r : Ref sig .tc} (hr : r ∉ wr1) :
    StableHlo.after (hostOps1 (F := Ideal)) X (Proc.devRef .tc r) = X (Proc.devRef .tc r) :=
  StableHlo.after_of_writes_sub (W := wr1) _ X (by
    simp only [hostOps1, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr
/-- A buffer the third stretch does not write keeps its contents across it. -/
theorem keep2 (X : Valuation τ sig (Elt Ideal)) {r : Ref sig .tc} (hr : r ∉ wr2) :
    StableHlo.after (hostOps2 (F := Ideal)) X (Proc.devRef .tc r) = X (Proc.devRef .tc r) :=
  StableHlo.after_of_writes_sub (W := wr2) _ X (by
    simp only [hostOps2, List.Forall, StableHlo.unary_writes, Finset.singleton_subset_iff, List.mem_toFinset, List.mem_map]
    exact ⟨_, by decide, rfl⟩) hr
/-- A buffer the fourth stretch does not write keeps its contents across it. -/
theorem keep3 (X : Valuation τ sig (Elt Ideal)) {r : Ref sig .tc} (hr : r ∉ wr3) :
    StableHlo.after (hostOps3 (F := Ideal)) X (Proc.devRef .tc r) = X (Proc.devRef .tc r) :=
  StableHlo.after_of_writes_sub (W := wr3) _ X (by
    simp only [hostOps3, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-! ## The first stretch: the reciprocal degree, the neighbour sum of the input rows, the first layer's weights and bias -/

theorem ops0_v8 (X : Valuation τ sig (Elt Ideal)) :
    (StableHlo.after (hostOps0 (F := Ideal)) X (Proc.devRef .tc main_v8) : S50000x1.Idx → EReal)
      = invK (X (Proc.devRef .tc main_arg2)) := by
  unfold invK
  after_results

theorem ops0_v20 (X : Valuation τ sig (Elt Ideal)) :
    (StableHlo.after (hostOps0 (F := Ideal)) X (Proc.devRef .tc main_v20) : S50000x128.Idx → EReal)
      = aggK (X (Proc.devRef .tc main_arg0)) (X (Proc.devRef .tc main_arg1)) (X (Proc.devRef .tc main_arg2)) := by
  unfold aggK srcCol
  after_results_simp

theorem ops0_v21 (X : Valuation τ sig (Elt Ideal)) :
    (StableHlo.after (hostOps0 (F := Ideal)) X (Proc.devRef .tc main_v21) : S128x128.Idx → EReal)
      = cvt (X (Proc.devRef .tc main_arg3)) := by
  unfold cvt
  after_results

theorem ops0_v23 (X : Valuation τ sig (Elt Ideal)) :
    (StableHlo.after (hostOps0 (F := Ideal)) X (Proc.devRef .tc main_v23) : S1x128.Idx → EReal)
      = rowK128 (X (Proc.devRef .tc main_arg5)) := by
  unfold rowK128
  after_results
  rfl

theorem ops0_v22 (X : Valuation τ sig (Elt Ideal)) :
    (StableHlo.after (hostOps0 (F := Ideal)) X (Proc.devRef .tc main_v22) : S128x128.Idx → EReal)
      = cvt (X (Proc.devRef .tc main_arg4)) := by
  unfold cvt
  after_results

/-! ## The second stretch: the neighbour sum of the first layer's rows, the second layer's weights and bias -/

theorem ops1_v36 (X : Valuation τ sig (Elt Ideal)) :
    (StableHlo.after (hostOps1 (F := Ideal)) X (Proc.devRef .tc main_v36) : S50000x128.Idx → EReal)
      = aggK (X (Proc.devRef .tc main_v24)) (X (Proc.devRef .tc main_arg1)) (X (Proc.devRef .tc main_arg2)) := by
  unfold aggK srcCol
  after_results_simp

theorem ops1_v37 (X : Valuation τ sig (Elt Ideal)) :
    (StableHlo.after (hostOps1 (F := Ideal)) X (Proc.devRef .tc main_v37) : S128x128.Idx → EReal)
      = cvt (X (Proc.devRef .tc main_arg6)) := by
  unfold cvt
  after_results

theorem ops1_v38 (X : Valuation τ sig (Elt Ideal)) :
    (StableHlo.after (hostOps1 (F := Ideal)) X (Proc.devRef .tc main_v38) : S128x128.Idx → EReal)
      = cvt (X (Proc.devRef .tc main_arg7)) := by
  unfold cvt
  after_results

theorem ops1_v39 (X : Valuation τ sig (Elt Ideal)) :
    (StableHlo.after (hostOps1 (F := Ideal)) X (Proc.devRef .tc main_v39) : S1x128.Idx → EReal)
      = rowK128 (X (Proc.devRef .tc main_arg8)) := by
  unfold rowK128
  after_results
  rfl

/-! ## The third stretch: the last layer's neighbour weight -/

theorem ops2_v41 (X : Valuation τ sig (Elt Ideal)) :
    (StableHlo.after (hostOps2 (F := Ideal)) X (Proc.devRef .tc main_v41) : S128x64.Idx → EReal)
      = cvt (X (Proc.devRef .tc main_arg10)) := by
  unfold cvt
  after_results

/-! ## The fourth stretch: the neighbour sum of the projected rows, the last layer's self weight and bias -/

theorem ops3_v54 (X : Valuation τ sig (Elt Ideal)) :
    (StableHlo.after (hostOps3 (F := Ideal)) X (Proc.devRef .tc main_v54) : S50000x64.Idx → EReal)
      = aggK64 (X (Proc.devRef .tc main_v42)) (X (Proc.devRef .tc main_arg1)) (X (Proc.devRef .tc main_arg2)) := by
  unfold aggK64 srcCol
  after_results_simp

theorem ops3_v55 (X : Valuation τ sig (Elt Ideal)) :
    (StableHlo.after (hostOps3 (F := Ideal)) X (Proc.devRef .tc main_v55) : S128x64.Idx → EReal)
      = cvt (X (Proc.devRef .tc main_arg9)) := by
  unfold cvt
  after_results

theorem ops3_v56 (X : Valuation τ sig (Elt Ideal)) :
    (StableHlo.after (hostOps3 (F := Ideal)) X (Proc.devRef .tc main_v56) : S1x64.Idx → EReal)
      = rowK64 (X (Proc.devRef .tc main_arg11)) := by
  unfold rowK64
  after_results
  rfl

end Cert.Sage.KChain

end
-- ==== Proof.KChain.lean ====
/-
  The result array of the kernel's program as a function of its argument arrays.

  The generated frame keeps, for each core, the contents of every buffer at the nine boundaries between the
  program's segments: `W0` is the launch memory, an odd boundary is the previous one after a stretch of host
  operations, an even one is the previous one with a region's arrays replaced by what the region leaves.  The
  result buffer `main_v57` is the last region's output.  Walking back: a region's output array is the region's
  whole-array value (a hypothesis here, one per region, at any entry contents) of its input arrays at the region's
  entry; an input array is a host term over the previous boundary (read off the stretch), or is carried unchanged
  through regions that do not write it and stretches that do not write it; an argument array is the launch
  memory at every boundary.  Composing the four regions' values with the host terms gives three layers: two
  rectified layers over the neighbour mean of the current rows, and a last layer whose neighbour weight is
  applied before the aggregation.
-/
import proofs.«145628_j19851338842541_2_alg».proof.Proof.Gen.KernelIdeal.Frame
import proofs.«145628_j19851338842541_2_alg».proof.Proof.Spec
import proofs.«145628_j19851338842541_2_alg».proof.Proof.KChain0

set_option maxRecDepth 16384

noncomputable section

namespace Cert.Sage.KChain

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-! ## The three layers over the launch memory -/

/-- The first layer's rows: the rectified layer of the input rows and their neighbour mean. -/
def h1 : Mat 50000 128 :=
  layerK (n := 50000) (K := 128) (d := 128) (m ((c.tc : Thread nD τ).loc main_arg0))
    (aggK (m ((c.tc : Thread nD τ).loc main_arg0)) (m ((c.tc : Thread nD τ).loc main_arg1)) (m ((c.tc : Thread nD τ).loc main_arg2))) (invK (m ((c.tc : Thread nD τ).loc main_arg2)))
    (cvt (m ((c.tc : Thread nD τ).loc main_arg3))) (cvt (m ((c.tc : Thread nD τ).loc main_arg4))) (rowK128 (m ((c.tc : Thread nD τ).loc main_arg5)))

/-- The second layer's rows: the same layer over the first layer's rows. -/
def h2 : Mat 50000 128 :=
  layerK (n := 50000) (K := 128) (d := 128) (h1 m c)
    (aggK (h1 m c) (m ((c.tc : Thread nD τ).loc main_arg1)) (m ((c.tc : Thread nD τ).loc main_arg2))) (invK (m ((c.tc : Thread nD τ).loc main_arg2)))
    (cvt (m ((c.tc : Thread nD τ).loc main_arg6))) (cvt (m ((c.tc : Thread nD τ).loc main_arg7))) (rowK128 (m ((c.tc : Thread nD τ).loc main_arg8)))

/-- The result: the last layer over the second layer's rows, the neighbour weight applied before the aggregation. -/
def res : Mat 50000 64 :=
  outK (n := 50000) (K := 128) (d := 64) (h2 m c)
    (aggK64 (projK (n := 50000) (K := 128) (d := 64) (h2 m c) (cvt (m ((c.tc : Thread nD τ).loc main_arg10)))) (m ((c.tc : Thread nD τ).loc main_arg1)) (m ((c.tc : Thread nD τ).loc main_arg2)))
    (invK (m ((c.tc : Thread nD τ).loc main_arg2))) (cvt (m ((c.tc : Thread nD τ).loc main_arg9))) (rowK64 (m ((c.tc : Thread nD τ).loc main_arg11)))

/-! ## Boundary 1: the first stretch over the launch memory -/
theorem W1_arg0 : W1 m ρ c (Proc.devRef .tc main_arg0) = m ((c.tc : Thread nD τ).loc main_arg0) := keep0 (W0 m ρ c) (by decide)
theorem W1_arg1 : W1 m ρ c (Proc.devRef .tc main_arg1) = m ((c.tc : Thread nD τ).loc main_arg1) := keep0 (W0 m ρ c) (by decide)
theorem W1_arg2 : W1 m ρ c (Proc.devRef .tc main_arg2) = m ((c.tc : Thread nD τ).loc main_arg2) := keep0 (W0 m ρ c) (by decide)
theorem W1_arg6 : W1 m ρ c (Proc.devRef .tc main_arg6) = m ((c.tc : Thread nD τ).loc main_arg6) := keep0 (W0 m ρ c) (by decide)
theorem W1_arg7 : W1 m ρ c (Proc.devRef .tc main_arg7) = m ((c.tc : Thread nD τ).loc main_arg7) := keep0 (W0 m ρ c) (by decide)
theorem W1_arg8 : W1 m ρ c (Proc.devRef .tc main_arg8) = m ((c.tc : Thread nD τ).loc main_arg8) := keep0 (W0 m ρ c) (by decide)
theorem W1_arg9 : W1 m ρ c (Proc.devRef .tc main_arg9) = m ((c.tc : Thread nD τ).loc main_arg9) := keep0 (W0 m ρ c) (by decide)
theorem W1_arg10 : W1 m ρ c (Proc.devRef .tc main_arg10) = m ((c.tc : Thread nD τ).loc main_arg10) := keep0 (W0 m ρ c) (by decide)
theorem W1_arg11 : W1 m ρ c (Proc.devRef .tc main_arg11) = m ((c.tc : Thread nD τ).loc main_arg11) := keep0 (W0 m ρ c) (by decide)
theorem W1_v20 : (W1 m ρ c (Proc.devRef .tc main_v20) : S50000x128.Idx → EReal)
    = aggK (m ((c.tc : Thread nD τ).loc main_arg0)) (m ((c.tc : Thread nD τ).loc main_arg1)) (m ((c.tc : Thread nD τ).loc main_arg2)) := ops0_v20 (W0 m ρ c)
theorem W1_v8 : (W1 m ρ c (Proc.devRef .tc main_v8) : S50000x1.Idx → EReal) = invK (m ((c.tc : Thread nD τ).loc main_arg2)) := ops0_v8 (W0 m ρ c)
theorem W1_v21 : (W1 m ρ c (Proc.devRef .tc main_v21) : S128x128.Idx → EReal) = cvt (m ((c.tc : Thread nD τ).loc main_arg3)) := ops0_v21 (W0 m ρ c)
theorem W1_v22 : (W1 m ρ c (Proc.devRef .tc main_v22) : S128x128.Idx → EReal) = cvt (m ((c.tc : Thread nD τ).loc main_arg4)) := ops0_v22 (W0 m ρ c)
theorem W1_v23 : (W1 m ρ c (Proc.devRef .tc main_v23) : S1x128.Idx → EReal) = rowK128 (m ((c.tc : Thread nD τ).loc main_arg5)) := ops0_v23 (W0 m ρ c)

/-! ## Boundary 2: the first region -/

section
variable (hr0 : ∀ (V : (c : Dev nD) → (b : Ref sig .tc) → Buf (Elt Ideal) ((c : Thread nD τ).loc b)) (c : Dev nD),
  ((dat0 (F := Ideal) V c).arrAt 6 cfg0.N : S50000x128.Idx → EReal)
    = layerK (n := 50000) (K := 128) (d := 128) (V c main_arg0) (V c main_v20) (V c main_v8) (V c main_v21) (V c main_v22) (V c main_v23))
include hr0

/-- The first region's output is the first layer's rows: its value at the entry contents, whose inputs are the input
    rows as launched and the first stretch's terms. -/
theorem W2_v24 : (W2 m ρ c (Proc.devRef .tc main_v24) : S50000x128.Idx → EReal) = h1 m c :=
  (W2_arr m ρ c 6).trans ((hr0 (V1 m ρ) c).trans (by
    rw [show V1 m ρ c main_arg0 = _ from W1_arg0 m ρ c, show V1 m ρ c main_v20 = _ from W1_v20 m ρ c,
      show V1 m ρ c main_v8 = _ from W1_v8 m ρ c, show V1 m ρ c main_v21 = _ from W1_v21 m ρ c,
      show V1 m ρ c main_v22 = _ from W1_v22 m ρ c, show V1 m ρ c main_v23 = _ from W1_v23 m ρ c]
    rfl))
end

/-- The reciprocal-degree column is an input of the first region: it leaves it as entered. -/
theorem W2_v8 : (W2 m ρ c (Proc.devRef .tc main_v8) : S50000x1.Idx → EReal) = invK (m ((c.tc : Thread nD τ).loc main_arg2)) :=
  ((W2_arr m ρ c 2).trans (((dat0 (V1 m ρ) c).arrAt_in 2 rfl _).trans (A_eq0 (V1 m ρ) c 2))).trans (W1_v8 m ρ c)
theorem W2_arg1 : W2 m ρ c (Proc.devRef .tc main_arg1) = m ((c.tc : Thread nD τ).loc main_arg1) := (W2_of_ne m ρ c main_arg1 (by decide)).trans (W1_arg1 m ρ c)
theorem W2_arg2 : W2 m ρ c (Proc.devRef .tc main_arg2) = m ((c.tc : Thread nD τ).loc main_arg2) := (W2_of_ne m ρ c main_arg2 (by decide)).trans (W1_arg2 m ρ c)
theorem W2_arg6 : W2 m ρ c (Proc.devRef .tc main_arg6) = m ((c.tc : Thread nD τ).loc main_arg6) := (W2_of_ne m ρ c main_arg6 (by decide)).trans (W1_arg6 m ρ c)
theorem W2_arg7 : W2 m ρ c (Proc.devRef .tc main_arg7) = m ((c.tc : Thread nD τ).loc main_arg7) := (W2_of_ne m ρ c main_arg7 (by decide)).trans (W1_arg7 m ρ c)
theorem W2_arg8 : W2 m ρ c (Proc.devRef .tc main_arg8) = m ((c.tc : Thread nD τ).loc main_arg8) := (W2_of_ne m ρ c main_arg8 (by decide)).trans (W1_arg8 m ρ c)
theorem W2_arg9 : W2 m ρ c (Proc.devRef .tc main_arg9) = m ((c.tc : Thread nD τ).loc main_arg9) := (W2_of_ne m ρ c main_arg9 (by decide)).trans (W1_arg9 m ρ c)
theorem W2_arg10 : W2 m ρ c (Proc.devRef .tc main_arg10) = m ((c.tc : Thread nD τ).loc main_arg10) := (W2_of_ne m ρ c main_arg10 (by decide)).trans (W1_arg10 m ρ c)
theorem W2_arg11 : W2 m ρ c (Proc.devRef .tc main_arg11) = m ((c.tc : Thread nD τ).loc main_arg11) := (W2_of_ne m ρ c main_arg11 (by decide)).trans (W1_arg11 m ρ c)

/-! ## Boundary 3: the second stretch over the first region's exit -/

section
variable (hr0 : ∀ (V : (c : Dev nD) → (b : Ref sig .tc) → Buf (Elt Ideal) ((c : Thread nD τ).loc b)) (c : Dev nD),
  ((dat0 (F := Ideal) V c).arrAt 6 cfg0.N : S50000x128.Idx → EReal)
    = layerK (n := 50000) (K := 128) (d := 128) (V c main_arg0) (V c main_v20) (V c main_v8) (V c main_v21) (V c main_v22) (V c main_v23))
include hr0

theorem W3_v24 : (W3 m ρ c (Proc.devRef .tc main_v24) : S50000x128.Idx → EReal) = h1 m c :=
  (keep1 (W2 m ρ c) (by decide)).trans (W2_v24 m ρ c hr0)
/-- The neighbour sum the second region reads is that of the first layer's rows. -/
theorem W3_v36 : (W3 m ρ c (Proc.devRef .tc main_v36) : S50000x128.Idx → EReal)
    = aggK (h1 m c) (m ((c.tc : Thread nD τ).loc main_arg1)) (m ((c.tc : Thread nD τ).loc main_arg2)) :=
  (ops1_v36 (W2 m ρ c)).trans (by rw [W2_v24 m ρ c hr0, W2_arg1 m ρ c, W2_arg2 m ρ c])
end

theorem W3_v8 : (W3 m ρ c (Proc.devRef .tc main_v8) : S50000x1.Idx → EReal) = invK (m ((c.tc : Thread nD τ).loc main_arg2)) :=
  (keep1 (W2 m ρ c) (by decide)).trans (W2_v8 m ρ c)
theorem W3_v37 : (W3 m ρ c (Proc.devRef .tc main_v37) : S128x128.Idx → EReal) = cvt (m ((c.tc : Thread nD τ).loc main_arg6)) :=
  (ops1_v37 (W2 m ρ c)).trans (by rw [W2_arg6 m ρ c])
theorem W3_v38 : (W3 m ρ c (Proc.devRef .tc main_v38) : S128x128.Idx → EReal) = cvt (m ((c.tc : Thread nD τ).loc main_arg7)) :=
  (ops1_v38 (W2 m ρ c)).trans (by rw [W2_arg7 m ρ c])
theorem W3_v39 : (W3 m ρ c (Proc.devRef .tc main_v39) : S1x128.Idx → EReal) = rowK128 (m ((c.tc : Thread nD τ).loc main_arg8)) :=
  (ops1_v39 (W2 m ρ c)).trans (by rw [W2_arg8 m ρ c])
theorem W3_arg1 : W3 m ρ c (Proc.devRef .tc main_arg1) = m ((c.tc : Thread nD τ).loc main_arg1) := (keep1 (W2 m ρ c) (by decide)).trans (W2_arg1 m ρ c)
theorem W3_arg2 : W3 m ρ c (Proc.devRef .tc main_arg2) = m ((c.tc : Thread nD τ).loc main_arg2) := (keep1 (W2 m ρ c) (by decide)).trans (W2_arg2 m ρ c)
theorem W3_arg9 : W3 m ρ c (Proc.devRef .tc main_arg9) = m ((c.tc : Thread nD τ).loc main_arg9) := (keep1 (W2 m ρ c) (by decide)).trans (W2_arg9 m ρ c)
theorem W3_arg10 : W3 m ρ c (Proc.devRef .tc main_arg10) = m ((c.tc : Thread nD τ).loc main_arg10) := (keep1 (W2 m ρ c) (by decide)).trans (W2_arg10 m ρ c)
theorem W3_arg11 : W3 m ρ c (Proc.devRef .tc main_arg11) = m ((c.tc : Thread nD τ).loc main_arg11) := (keep1 (W2 m ρ c) (by decide)).trans (W2_arg11 m ρ c)

/-! ## Boundary 4: the second region -/

section
variable (hr0 : ∀ (V : (c : Dev nD) → (b : Ref sig .tc) → Buf (Elt Ideal) ((c : Thread nD τ).loc b)) (c : Dev nD),
  ((dat0 (F := Ideal) V c).arrAt 6 cfg0.N : S50000x128.Idx → EReal)
    = layerK (n := 50000) (K := 128) (d := 128) (V c main_arg0) (V c main_v20) (V c main_v8) (V c main_v21) (V c main_v22) (V c main_v23))
  (hr1 : ∀ (V : (c : Dev nD) → (b : Ref sig .tc) → Buf (Elt Ideal) ((c : Thread nD τ).loc b)) (c : Dev nD),
  ((dat1 (F := Ideal) V c).arrAt 6 cfg1.N : S50000x128.Idx → EReal)
    = layerK (n := 50000) (K := 128) (d := 128) (V c main_v24) (V c main_v36) (V c main_v8) (V c main_v37) (V c main_v38) (V c main_v39))
include hr0 hr1

/-- The second region's output is the second layer's rows. -/
theorem W4_v40 : (W4 m ρ c (Proc.devRef .tc main_v40) : S50000x128.Idx → EReal) = h2 m c :=
  (W4_arr m ρ c 6).trans ((hr1 (V3 m ρ) c).trans (by
    rw [show V3 m ρ c main_v24 = _ from W3_v24 m ρ c hr0, show V3 m ρ c main_v36 = _ from W3_v36 m ρ c hr0,
      show V3 m ρ c main_v8 = _ from W3_v8 m ρ c, show V3 m ρ c main_v37 = _ from W3_v37 m ρ c,
      show V3 m ρ c main_v38 = _ from W3_v38 m ρ c, show V3 m ρ c main_v39 = _ from W3_v39 m ρ c]
    rfl))
end

/-- The reciprocal-degree column is an input of the second region too. -/
theorem W4_v8 : (W4 m ρ c (Proc.devRef .tc main_v8) : S50000x1.Idx → EReal) = invK (m ((c.tc : Thread nD τ).loc main_arg2)) :=
  ((W4_arr m ρ c 2).trans (((dat1 (V3 m ρ) c).arrAt_in 2 rfl _).trans (A_eq1 (V3 m ρ) c 2))).trans (W3_v8 m ρ c)
theorem W4_arg1 : W4 m ρ c (Proc.devRef .tc main_arg1) = m ((c.tc : Thread nD τ).loc main_arg1) := (W4_of_ne m ρ c main_arg1 (by decide)).trans (W3_arg1 m ρ c)
theorem W4_arg2 : W4 m ρ c (Proc.devRef .tc main_arg2) = m ((c.tc : Thread nD τ).loc main_arg2) := (W4_of_ne m ρ c main_arg2 (by decide)).trans (W3_arg2 m ρ c)
theorem W4_arg9 : W4 m ρ c (Proc.devRef .tc main_arg9) = m ((c.tc : Thread nD τ).loc main_arg9) := (W4_of_ne m ρ c main_arg9 (by decide)).trans (W3_arg9 m ρ c)
theorem W4_arg10 : W4 m ρ c (Proc.devRef .tc main_arg10) = m ((c.tc : Thread nD τ).loc main_arg10) := (W4_of_ne m ρ c main_arg10 (by decide)).trans (W3_arg10 m ρ c)
theorem W4_arg11 : W4 m ρ c (Proc.devRef .tc main_arg11) = m ((c.tc : Thread nD τ).loc main_arg11) := (W4_of_ne m ρ c main_arg11 (by decide)).trans (W3_arg11 m ρ c)

/-! ## Boundary 5: the third stretch -/

section
variable (hr0 : ∀ (V : (c : Dev nD) → (b : Ref sig .tc) → Buf (Elt Ideal) ((c : Thread nD τ).loc b)) (c : Dev nD),
  ((dat0 (F := Ideal) V c).arrAt 6 cfg0.N : S50000x128.Idx → EReal)
    = layerK (n := 50000) (K := 128) (d := 128) (V c main_arg0) (V c main_v20) (V c main_v8) (V c main_v21) (V c main_v22) (V c main_v23))
  (hr1 : ∀ (V : (c : Dev nD) → (b : Ref sig .tc) → Buf (Elt Ideal) ((c : Thread nD τ).loc b)) (c : Dev nD),
  ((dat1 (F := Ideal) V c).arrAt 6 cfg1.N : S50000x128.Idx → EReal)
    = layerK (n := 50000) (K := 128) (d := 128) (V c main_v24) (V c main_v36) (V c main_v8) (V c main_v37) (V c main_v38) (V c main_v39))
include hr0 hr1
theorem W5_v40 : (W5 m ρ c (Proc.devRef .tc main_v40) : S50000x128.Idx → EReal) = h2 m c :=
  (keep2 (W4 m ρ c) (by decide)).trans (W4_v40 m ρ c hr0 hr1)
end
theorem W5_v41 : (W5 m ρ c (Proc.devRef .tc main_v41) : S128x64.Idx → EReal) = cvt (m ((c.tc : Thread nD τ).loc main_arg10)) :=
  (ops2_v41 (W4 m ρ c)).trans (by rw [W4_arg10 m ρ c])
theorem W5_v8 : (W5 m ρ c (Proc.devRef .tc main_v8) : S50000x1.Idx → EReal) = invK (m ((c.tc : Thread nD τ).loc main_arg2)) :=
  (keep2 (W4 m ρ c) (by decide)).trans (W4_v8 m ρ c)
theorem W5_arg1 : W5 m ρ c (Proc.devRef .tc main_arg1) = m ((c.tc : Thread nD τ).loc main_arg1) := (keep2 (W4 m ρ c) (by decide)).trans (W4_arg1 m ρ c)
theorem W5_arg2 : W5 m ρ c (Proc.devRef .tc main_arg2) = m ((c.tc : Thread nD τ).loc main_arg2) := (keep2 (W4 m ρ c) (by decide)).trans (W4_arg2 m ρ c)
theorem W5_arg9 : W5 m ρ c (Proc.devRef .tc main_arg9) = m ((c.tc : Thread nD τ).loc main_arg9) := (keep2 (W4 m ρ c) (by decide)).trans (W4_arg9 m ρ c)
theorem W5_arg11 : W5 m ρ c (Proc.devRef .tc main_arg11) = m ((c.tc : Thread nD τ).loc main_arg11) := (keep2 (W4 m ρ c) (by decide)).trans (W4_arg11 m ρ c)

/-! ## Boundary 6: the third region (the projection by the neighbour weight) -/

section
variable (hr0 : ∀ (V : (c : Dev nD) → (b : Ref sig .tc) → Buf (Elt Ideal) ((c : Thread nD τ).loc b)) (c : Dev nD),
  ((dat0 (F := Ideal) V c).arrAt 6 cfg0.N : S50000x128.Idx → EReal)
    = layerK (n := 50000) (K := 128) (d := 128) (V c main_arg0) (V c main_v20) (V c main_v8) (V c main_v21) (V c main_v22) (V c main_v23))
  (hr1 : ∀ (V : (c : Dev nD) → (b : Ref sig .tc) → Buf (Elt Ideal) ((c : Thread nD τ).loc b)) (c : Dev nD),
  ((dat1 (F := Ideal) V c).arrAt 6 cfg1.N : S50000x128.Idx → EReal)
    = layerK (n := 50000) (K := 128) (d := 128) (V c main_v24) (V c main_v36) (V c main_v8) (V c main_v37) (V c main_v38) (V c main_v39))
  (hr2 : ∀ (V : (c : Dev nD) → (b : Ref sig .tc) → Buf (Elt Ideal) ((c : Thread nD τ).loc b)) (c : Dev nD),
  ((dat2 (F := Ideal) V c).arrAt 2 cfg2.N : S50000x64.Idx → EReal)
    = projK (n := 50000) (K := 128) (d := 64) (V c main_v40) (V c main_v41))
include hr0 hr1
/-- The second layer's rows are an input of the third region: it leaves them as entered. -/
theorem W6_v40 : (W6 m ρ c (Proc.devRef .tc main_v40) : S50000x128.Idx → EReal) = h2 m c :=
  ((W6_arr m ρ c 0).trans (((dat2 (V5 m ρ) c).arrAt_in 0 rfl _).trans (A_eq2 (V5 m ρ) c 0))).trans (W5_v40 m ρ c hr0 hr1)
include hr2
/-- The third region's output is the second layer's rows multiplied by the neighbour weight. -/
theorem W6_v42 : (W6 m ρ c (Proc.devRef .tc main_v42) : S50000x64.Idx → EReal)
    = projK (n := 50000) (K := 128) (d := 64) (h2 m c) (cvt (m ((c.tc : Thread nD τ).loc main_arg10))) :=
  (W6_arr m ρ c 2).trans ((hr2 (V5 m ρ) c).trans (by
    rw [show V5 m ρ c main_v40 = _ from W5_v40 m ρ c hr0 hr1, show V5 m ρ c main_v41 = _ from W5_v41 m ρ c]))
end
theorem W6_v8 : (W6 m ρ c (Proc.devRef .tc main_v8) : S50000x1.Idx → EReal) = invK (m ((c.tc : Thread nD τ).loc main_arg2)) :=
  (W6_of_ne m ρ c main_v8 (by decide)).trans (W5_v8 m ρ c)
theorem W6_arg1 : W6 m ρ c (Proc.devRef .tc main_arg1) = m ((c.tc : Thread nD τ).loc main_arg1) := (W6_of_ne m ρ c main_arg1 (by decide)).trans (W5_arg1 m ρ c)
theorem W6_arg2 : W6 m ρ c (Proc.devRef .tc main_arg2) = m ((c.tc : Thread nD τ).loc main_arg2) := (W6_of_ne m ρ c main_arg2 (by decide)).trans (W5_arg2 m ρ c)
theorem W6_arg9 : W6 m ρ c (Proc.devRef .tc main_arg9) = m ((c.tc : Thread nD τ).loc main_arg9) := (W6_of_ne m ρ c main_arg9 (by decide)).trans (W5_arg9 m ρ c)
theorem W6_arg11 : W6 m ρ c (Proc.devRef .tc main_arg11) = m ((c.tc : Thread nD τ).loc main_arg11) := (W6_of_ne m ρ c main_arg11 (by decide)).trans (W5_arg11 m ρ c)

/-! ## Boundary 7: the fourth stretch -/

section
variable (hr0 : ∀ (V : (c : Dev nD) → (b : Ref sig .tc) → Buf (Elt Ideal) ((c : Thread nD τ).loc b)) (c : Dev nD),
  ((dat0 (F := Ideal) V c).arrAt 6 cfg0.N : S50000x128.Idx → EReal)
    = layerK (n := 50000) (K := 128) (d := 128) (V c main_arg0) (V c main_v20) (V c main_v8) (V c main_v21) (V c main_v22) (V c main_v23))
  (hr1 : ∀ (V : (c : Dev nD) → (b : Ref sig .tc) → Buf (Elt Ideal) ((c : Thread nD τ).loc b)) (c : Dev nD),
  ((dat1 (F := Ideal) V c).arrAt 6 cfg1.N : S50000x128.Idx → EReal)
    = layerK (n := 50000) (K := 128) (d := 128) (V c main_v24) (V c main_v36) (V c main_v8) (V c main_v37) (V c main_v38) (V c main_v39))
  (hr2 : ∀ (V : (c : Dev nD) → (b : Ref sig .tc) → Buf (Elt Ideal) ((c : Thread nD τ).loc b)) (c : Dev nD),
  ((dat2 (F := Ideal) V c).arrAt 2 cfg2.N : S50000x64.Idx → EReal)
    = projK (n := 50000) (K := 128) (d := 64) (V c main_v40) (V c main_v41))
include hr0 hr1
theorem W7_v40 : (W7 m ρ c (Proc.devRef .tc main_v40) : S50000x128.Idx → EReal) = h2 m c :=
  (keep3 (W6 m ρ c) (by decide)).trans (W6_v40 m ρ c hr0 hr1)
include hr2
/-- The neighbour sum the last region reads is that of the projected rows. -/
theorem W7_v54 : (W7 m ρ c (Proc.devRef .tc main_v54) : S50000x64.Idx → EReal)
    = aggK64 (projK (n := 50000) (K := 128) (d := 64) (h2 m c) (cvt (m ((c.tc : Thread nD τ).loc main_arg10)))) (m ((c.tc : Thread nD τ).loc main_arg1)) (m ((c.tc : Thread nD τ).loc main_arg2)) :=
  (ops3_v54 (W6 m ρ c)).trans (by rw [W6_v42 m ρ c hr0 hr1 hr2, W6_arg1 m ρ c, W6_arg2 m ρ c])
end
theorem W7_v8 : (W7 m ρ c (Proc.devRef .tc main_v8) : S50000x1.Idx → EReal) = invK (m ((c.tc : Thread nD τ).loc main_arg2)) :=
  (keep3 (W6 m ρ c) (by decide)).trans (W6_v8 m ρ c)
theorem W7_v55 : (W7 m ρ c (Proc.devRef .tc main_v55) : S128x64.Idx → EReal) = cvt (m ((c.tc : Thread nD τ).loc main_arg9)) :=
  (ops3_v55 (W6 m ρ c)).trans (by rw [W6_arg9 m ρ c])
theorem W7_v56 : (W7 m ρ c (Proc.devRef .tc main_v56) : S1x64.Idx → EReal) = rowK64 (m ((c.tc : Thread nD τ).loc main_arg11)) :=
  (ops3_v56 (W6 m ρ c)).trans (by rw [W6_arg11 m ρ c])

/-! ## Boundary 8: the last region, and the result -/

section
variable (hr0 : ∀ (V : (c : Dev nD) → (b : Ref sig .tc) → Buf (Elt Ideal) ((c : Thread nD τ).loc b)) (c : Dev nD),
  ((dat0 (F := Ideal) V c).arrAt 6 cfg0.N : S50000x128.Idx → EReal)
    = layerK (n := 50000) (K := 128) (d := 128) (V c main_arg0) (V c main_v20) (V c main_v8) (V c main_v21) (V c main_v22) (V c main_v23))
  (hr1 : ∀ (V : (c : Dev nD) → (b : Ref sig .tc) → Buf (Elt Ideal) ((c : Thread nD τ).loc b)) (c : Dev nD),
  ((dat1 (F := Ideal) V c).arrAt 6 cfg1.N : S50000x128.Idx → EReal)
    = layerK (n := 50000) (K := 128) (d := 128) (V c main_v24) (V c main_v36) (V c main_v8) (V c main_v37) (V c main_v38) (V c main_v39))
  (hr2 : ∀ (V : (c : Dev nD) → (b : Ref sig .tc) → Buf (Elt Ideal) ((c : Thread nD τ).loc b)) (c : Dev nD),
  ((dat2 (F := Ideal) V c).arrAt 2 cfg2.N : S50000x64.Idx → EReal)
    = projK (n := 50000) (K := 128) (d := 64) (V c main_v40) (V c main_v41))
  (hr3 : ∀ (V : (c : Dev nD) → (b : Ref sig .tc) → Buf (Elt Ideal) ((c : Thread nD τ).loc b)) (c : Dev nD),
  ((dat3 (F := Ideal) V c).arrAt 5 cfg3.N : S50000x64.Idx → EReal)
    = outK (n := 50000) (K := 128) (d := 64) (V c main_v40) (V c main_v54) (V c main_v8) (V c main_v55) (V c main_v56))
include hr0 hr1 hr2 hr3

/-- The result buffer at the end of the run is the three layers' composition over the launch memory. -/
theorem W8_v57 : (W8 m ρ c (Proc.devRef .tc main_v57) : S50000x64.Idx → EReal) = res m c :=
  (W8_arr m ρ c 5).trans ((hr3 (V7 m ρ) c).trans (by
    rw [show V7 m ρ c main_v40 = _ from W7_v40 m ρ c hr0 hr1, show V7 m ρ c main_v54 = _ from W7_v54 m ρ c hr0 hr1 hr2,
      show V7 m ρ c main_v8 = _ from W7_v8 m ρ c, show V7 m ρ c main_v55 = _ from W7_v55 m ρ c,
      show V7 m ρ c main_v56 = _ from W7_v56 m ρ c]
    rfl))

/-- The same, every term spelled over the launch memory. -/
theorem result_eq : (W8 m ρ c (Proc.devRef .tc main_v57) : S50000x64.Idx → EReal)
    = outK (n := 50000) (K := 128) (d := 64)
        (layerK (n := 50000) (K := 128) (d := 128)
          (layerK (n := 50000) (K := 128) (d := 128) (m ((c.tc : Thread nD τ).loc main_arg0))
            (aggK (m ((c.tc : Thread nD τ).loc main_arg0)) (m ((c.tc : Thread nD τ).loc main_arg1)) (m ((c.tc : Thread nD τ).loc main_arg2))) (invK (m ((c.tc : Thread nD τ).loc main_arg2)))
            (cvt (m ((c.tc : Thread nD τ).loc main_arg3))) (cvt (m ((c.tc : Thread nD τ).loc main_arg4))) (rowK128 (m ((c.tc : Thread nD τ).loc main_arg5))))
          (aggK (h1 m c) (m ((c.tc : Thread nD τ).loc main_arg1)) (m ((c.tc : Thread nD τ).loc main_arg2))) (invK (m ((c.tc : Thread nD τ).loc main_arg2)))
          (cvt (m ((c.tc : Thread nD τ).loc main_arg6))) (cvt (m ((c.tc : Thread nD τ).loc main_arg7))) (rowK128 (m ((c.tc : Thread nD τ).loc main_arg8))))
        (aggK64 (projK (n := 50000) (K := 128) (d := 64) (h2 m c) (cvt (m ((c.tc : Thread nD τ).loc main_arg10)))) (m ((c.tc : Thread nD τ).loc main_arg1)) (m ((c.tc : Thread nD τ).loc main_arg2)))
        (invK (m ((c.tc : Thread nD τ).loc main_arg2))) (cvt (m ((c.tc : Thread nD τ).loc main_arg9))) (rowK64 (m ((c.tc : Thread nD τ).loc main_arg11))) :=
  W8_v57 m ρ c hr0 hr1 hr2 hr3
end

end Cert.Sage.KChain

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KLayerBody.lean ====
/-
  The body of the first two layers, read at one entry.

  Each of the two launches runs the same arithmetic on its blocks: for a block of 5000 rows,

      out[p, q] = max ( Σ_k h[p, k] · Ws[k, q]  +  Σ_k (agg[p, k] · inv[p, 0]) · Wn[k, q]  +  b[0, q] ,  0 ),

  where the column `inv` (one entry per row) is first spread along the 128 columns, the one-row bias is spread along the 5000
  rows, the two products accumulate into the zero array, and the changes of float format are the identity on extended reals.
  The two launches differ only in the order of two identity casts.
-/
import proofs.«145628_j19851338842541_2_alg».proof.Proof.Gen.KernelIdeal.Skeleton
import proofs.«145628_j19851338842541_2_alg».proof.Proof.Spec
import proofs.«145628_j19851338842541_2_alg».proof.Proof.LibDotCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.KLayer

open Cert.KernelIdeal Cert.KernelIdeal.Gen Idealize.ShloMosaic Idealize.ShloMosaic.ValueIdx

/-- A column `[a, 1]` spread along `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The record of the two products spells the plain dimension numbers. -/
theorem dot_plain : dot_S5000x128_S128x128_S5000x128_1_0_0_1_n_n = DotDims.plain 5000 128 128 := rfl

/-- THE FIRST LAUNCH'S BODY AT AN ENTRY. -/
theorem pay0_apply (x0 x1 : Vec Ideal S5000x128 .f32) (x2 : Vec Ideal S5000x1 .f32) (x3 x4 : Vec Ideal S128x128 .bf16)
    (x5 : Vec Ideal S1x128 .f32) (p : Fin 5000) (q : Fin 128) :
    k0_pay1 (F := Ideal) x0 x1 x2 x3 x4 x5 (ix2 p q) = max (Cert.Sage.rowAtK x0 x1 x2 x3 x4 x5 p q) 0 := by
  unfold k0_pay1
  refine (maximumf_apply _ _ _).trans (congrArg₂ max ?_ Ideal.ofBits_zero_f32)
  refine (addf_apply _ _ _).trans ?_
  unfold Cert.Sage.rowAtK
  refine congrArg₂ (· + ·) ((addf_apply _ _ _).trans (congrArg₂ (· + ·) ?_ ?_)) ?_
  · -- the self term: the block times the self weight
    refine (Cert.Lib.DotCols.matmul_cols_apply _ dot_plain none _ _ p q).trans (Finset.sum_congr rfl fun k _ => ?_)
    rw [shapeCast_self]
    rfl
  · -- the neighbour term: the scaled neighbour sum times the neighbour weight
    refine (Cert.Lib.DotCols.matmul_cols_apply _ dot_plain none _ _ p q).trans (Finset.sum_congr rfl fun k _ => ?_)
    rw [shapeCast_self, shapeCast_self, shapeCast_self]
    exact congrArg₂ (· * ·) (congrArg₂ (· * ·) rfl (broadcastTo_a1_ab_apply x2 _ p k)) rfl
  · -- the bias row spread along the rows
    rw [shapeCast_self]
    exact broadcastTo_1b_ab_apply x5 _ p q

/-- THE SECOND LAUNCH'S BODY AT AN ENTRY: the same arithmetic, two identity casts in the other order. -/
theorem pay1_apply (x0 x1 : Vec Ideal S5000x128 .f32) (x2 : Vec Ideal S5000x1 .f32) (x3 x4 : Vec Ideal S128x128 .bf16)
    (x5 : Vec Ideal S1x128 .f32) (p : Fin 5000) (q : Fin 128) :
    k1_pay1 (F := Ideal) x0 x1 x2 x3 x4 x5 (ix2 p q) = max (Cert.Sage.rowAtK x0 x1 x2 x3 x4 x5 p q) 0 := by
  unfold k1_pay1
  refine (maximumf_apply _ _ _).trans (congrArg₂ max ?_ Ideal.ofBits_zero_f32)
  refine (addf_apply _ _ _).trans ?_
  unfold Cert.Sage.rowAtK
  refine congrArg₂ (· + ·) ((addf_apply _ _ _).trans (congrArg₂ (· + ·) ?_ ?_)) ?_
  · -- the self term: the block times the self weight
    refine (Cert.Lib.DotCols.matmul_cols_apply _ dot_plain none _ _ p q).trans (Finset.sum_congr rfl fun k _ => ?_)
    rw [shapeCast_self, shapeCast_self]
    rfl
  · -- the neighbour term: the scaled neighbour sum times the neighbour weight
    refine (Cert.Lib.DotCols.matmul_cols_apply _ dot_plain none _ _ p q).trans (Finset.sum_congr rfl fun k _ => ?_)
    rw [shapeCast_self, shapeCast_self, shapeCast_self]
    exact congrArg₂ (· * ·) (congrArg₂ (· * ·) rfl (broadcastTo_a1_ab_apply x2 _ p k)) rfl
  · -- the bias row spread along the rows
    rw [shapeCast_self]
    exact broadcastTo_1b_ab_apply x5 _ p q

end Cert.Sage.KLayer

end
-- ==== Proof.KLayer.lean ====
/-
  The first two launches, read as whole arrays.

  A launch walks 10 grid points; at point `t` it stages rows `5000·t … 5000·t + 4999` of the row-tiled operands (all columns),
  the two weight matrices and the bias whole, runs the body on the staged blocks and writes the result back to rows
  `5000·t … 5000·t + 4999` of the output. Since the body computes a row of the layer from the SAME row of each operand, what
  point `t` writes back is block `t` of ONE whole-array function — the layer of the operand arrays —, and since row `r` lies in
  the block of point `r / 5000`, the output array ends holding that function.
-/
import proofs.«145628_j19851338842541_2_alg».proof.Proof.Gen.KernelIdeal.Frame
import proofs.«145628_j19851338842541_2_alg».proof.Proof.Spec
import proofs.«145628_j19851338842541_2_alg».proof.Proof.KLayerBody
import Idealize.ShloMosaic.Lib.Pipeline.Value
import Idealize.ShloMosaic.Lib.ValueIdx

noncomputable section

open scoped BigOperators

namespace Cert.Sage.KLayer

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-buffer access, however they are spelt. -/
theorem hz : (![0, 0] : Fin 2 → Nat) = fun _ => 0 := funext fun a => by fin_cases a <;> rfl

/-! ## A block of rows of the layer is the layer of the blocks of rows -/

/-- The layer computed from blocks of 5000 rows is the layer of the whole arrays read through any placement `emb` of the block
    that shifts the row by `5000·tt` and keeps the column — provided each row-tiled block holds the array's rows `5000·tt + p`,
    and the weights and the bias are the arrays themselves. Row `p` of the result reads row `p` of each block only. -/
theorem layerK_block (X AGG : Mat 50000 128) (INV : Mat 50000 1) (Ws Wn : Mat 128 128) (B : Mat 1 128)
    (x0 x1 : Mat 5000 128) (x2 : Mat 5000 1) (w0 w1 : Mat 128 128) (b : Mat 1 128) (tt : Nat)
    (emb : (⟨2, ![5000, 128]⟩ : Shape).Idx → (⟨2, ![50000, 128]⟩ : Shape).Idx)
    (hemb0 : ∀ y, (emb y 0).val = 5000 * tt + (y 0).val) (hemb1 : ∀ y, (emb y 1).val = (y 1).val)
    (h0 : ∀ (p : Fin 5000) (k : Fin 128) (r : Fin 50000), r.val = 5000 * tt + p.val → x0 (ix2 p k) = X (ix2 r k))
    (h1 : ∀ (p : Fin 5000) (k : Fin 128) (r : Fin 50000), r.val = 5000 * tt + p.val → x1 (ix2 p k) = AGG (ix2 r k))
    (h2 : ∀ (p : Fin 5000) (r : Fin 50000), r.val = 5000 * tt + p.val → x2 (ix2 p (0 : Fin 1)) = INV (ix2 r (0 : Fin 1)))
    (h3 : w0 = Ws) (h4 : w1 = Wn) (h5 : b = B) :
    layerK x0 x1 x2 w0 w1 b = fun y => layerK X AGG INV Ws Wn B (emb y) := by
  subst h3 h4 h5
  funext y
  obtain ⟨p, q, rfl⟩ : ∃ (p : Fin 5000) (q : Fin 128), y = ix2 p q := ⟨y 0, y 1, eq_ix2 y⟩
  have hr : (emb (ix2 p q) 0).val = 5000 * tt + p.val := hemb0 (ix2 p q)
  have hq : (emb (ix2 p q) 1).val = q.val := hemb1 (ix2 p q)
  obtain ⟨r, hr'⟩ : ∃ r : Fin 50000, r.val = (emb (ix2 p q) 0).val := ⟨⟨(emb (ix2 p q) 0).val, (emb (ix2 p q) 0).isLt⟩, rfl⟩
  have he : emb (ix2 p q) = ix2 r q := funext fun a => Fin.ext (by
    match a with
    | ⟨0, _⟩ => exact hr'.symm
    | ⟨1, _⟩ => exact hq)
  have e0 : ∀ k : Fin 128, x0 (ix2 p k) = X (ix2 r k) := fun k => h0 p k r (hr'.trans hr)
  have e1 : ∀ k : Fin 128, x1 (ix2 p k) = AGG (ix2 r k) := fun k => h1 p k r (hr'.trans hr)
  have e2 : x2 (ix2 p (0 : Fin 1)) = INV (ix2 r (0 : Fin 1)) := h2 p r (hr'.trans hr)
  rw [he, layerK_apply, layerK_apply]
  unfold rowAtK
  simp only [e0, e1, e2]

/-! ## The first launch -/

section Launch0

variable (V : (c : Dev nD) → (b : Ref sig .tc) → Buf (Elt Ideal) ((c : Thread nD τ).loc b))

/-- The printed index maps, decided once over the 10 grid points: a row-tiled window (the three row-tiled operands and the result) is at
    block `t` of the rows and block 0 of the columns; a weight or bias window is at block 0 on both axes. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The block of the node array at point `t` holds rows `5000·t + p`. -/
theorem blk0_0 (c : Dev nD) (t : Fin cfg0.N) (p : Fin 5000) (k : Fin 128) (r : Fin 50000) (hr : r.val = 5000 * t.val + p.val) :
    (iblk0 V c 0 t : Vec Ideal S5000x128 .f32) (ix2 p k) = (V c main_arg0 : S50000x128.Idx → EReal) (ix2 r k) := by
  obtain ⟨⟨e0, e1⟩, -⟩ := idx_facts0 t
  unfold iblk0
  rw [View.read_apply]
  show (V c main_arg0 : S50000x128.Idx → EReal) _ = _
  refine congrArg (V c main_arg0 : S50000x128.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The block of the neighbour sum at point `t` holds rows `5000·t + p`. -/
theorem blk0_1 (c : Dev nD) (t : Fin cfg0.N) (p : Fin 5000) (k : Fin 128) (r : Fin 50000) (hr : r.val = 5000 * t.val + p.val) :
    (iblk0 V c 1 t : Vec Ideal S5000x128 .f32) (ix2 p k) = (V c main_v20 : S50000x128.Idx → EReal) (ix2 r k) := by
  obtain ⟨-, ⟨e0, e1⟩, -⟩ := idx_facts0 t
  unfold iblk0
  rw [View.read_apply]
  show (V c main_v20 : S50000x128.Idx → EReal) _ = _
  refine congrArg (V c main_v20 : S50000x128.Idx → EReal) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The block of the reciprocal-degree column at point `t` holds rows `5000·t + p`. -/
theorem blk0_2 (c : Dev nD) (t : Fin cfg0.N) (p : Fin 5000) (r : Fin 50000) (hr : r.val = 5000 * t.val + p.val) :
    (iblk0 V c 2 t : Vec Ideal S5000x1 .f32) (ix2 p (0 : Fin 1)) = (V c main_v8 : S50000x1.Idx → EReal) (ix2 r (0 : Fin 1)) := by
  obtain ⟨-, -, ⟨e0, e1⟩, -⟩ := idx_facts0 t
  unfold iblk0
  rw [View.read_apply]
  show (V c main_v8 : S50000x1.Idx → EReal) _ = _
  refine congrArg (V c main_v8 : S50000x1.Idx → EReal) (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- The self weight's block is the whole matrix at every point. -/
theorem blk0_3 (c : Dev nD) (t : Fin cfg0.N) :
    (iblk0 V c 3 t : Vec Ideal S128x128 .bf16) = (V c main_v21 : S128x128.Idx → EReal) := by
  obtain ⟨-, -, -, ⟨e0, e1⟩, -⟩ := idx_facts0 t
  funext y
  unfold iblk0
  rw [View.read_apply]
  show (V c main_v21 : S128x128.Idx → EReal) _ = _
  refine congrArg (V c main_v21 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The neighbour weight's block is the whole matrix at every point. -/
theorem blk0_4 (c : Dev nD) (t : Fin cfg0.N) :
    (iblk0 V c 4 t : Vec Ideal S128x128 .bf16) = (V c main_v22 : S128x128.Idx → EReal) := by
  obtain ⟨-, -, -, -, ⟨e0, e1⟩, -⟩ := idx_facts0 t
  funext y
  unfold iblk0
  rw [View.read_apply]
  show (V c main_v22 : S128x128.Idx → EReal) _ = _
  refine congrArg (V c main_v22 : S128x128.Idx → EReal) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The bias row's block is the whole row at every point. -/
theorem blk0_5 (c : Dev nD) (t : Fin cfg0.N) :
    (iblk0 V c 5 t : Vec Ideal S1x128 .f32) = (V c main_v23 : S1x128.Idx → EReal) := by
  obtain ⟨-, -, -, -, -, ⟨e0, e1⟩, -⟩ := idx_facts0 t
  funext y
  unfold iblk0
  rw [View.read_apply]
  show (V c main_v23 : S1x128.Idx → EReal) _ = _
  refine congrArg (V c main_v23 : S1x128.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- What the body leaves in the result's staging buffer is the layer of the staged blocks: its one store covers the buffer, its loads
    read the buffers whole, and the stored value is the body's arithmetic entry by entry. -/
theorem out0_eq (x0 x1 : Vec Ideal S5000x128 .f32) (x2 : Vec Ideal S5000x1 .f32) (x3 x4 : Vec Ideal S128x128 .bf16)
    (x5 : Vec Ideal S1x128 .f32) :
    out0_6 (F := Ideal) x0 x1 x2 x3 x4 x5 = layerK x0 x1 x2 x3 x4 x5 := by
  funext y
  obtain ⟨p, q, rfl⟩ : ∃ (p : Fin 5000) (q : Fin 128), y = ix2 p q := ⟨y 0, y 1, eq_ix2 y⟩
  unfold out0_6
  rw [View.canon_unit_zero hz]
  simp only [View.ld_unit_zero (S := S5000x128) hz, View.ld_unit_zero (S := S5000x1) hz, View.ld_unit_zero (S := S128x128) hz,
    View.ld_unit_zero (S := S1x128) hz]
  exact pay0_apply x0 x1 x2 x3 x4 x5 p q

/-- WHAT POINT `t` WRITES BACK is block `t` of the layer of the operand arrays as the launch finds them. -/
theorem flushed0_eq (c : Dev nD) (t : Fin cfg0.N) :
    (dat0 (F := Ideal) V c).flushed 6 t = ((cfg0.win 6).blk t).view.read (Elt Ideal)
      (layerK (V c main_arg0 : S50000x128.Idx → EReal) (V c main_v20 : S50000x128.Idx → EReal) (V c main_v8 : S50000x1.Idx → EReal)
        (V c main_v21 : S128x128.Idx → EReal) (V c main_v22 : S128x128.Idx → EReal) (V c main_v23 : S1x128.Idx → EReal)) := by
  show (cfg0.win 6).cut (grid0.coords t) ((dat0 V c).after 6 t) = _
  rw [after0_6, out0_eq (iblk0 V c 0 t) (iblk0 V c 1 t) (iblk0 V c 2 t) (iblk0 V c 3 t) (iblk0 V c 4 t) (iblk0 V c 5 t)]
  obtain ⟨-, -, -, -, -, -, ⟨e0, e1⟩⟩ := idx_facts0 t
  exact layerK_block (V c main_arg0 : S50000x128.Idx → EReal) (V c main_v20 : S50000x128.Idx → EReal) (V c main_v8 : S50000x1.Idx → EReal)
    (V c main_v21 : S128x128.Idx → EReal) (V c main_v22 : S128x128.Idx → EReal) (V c main_v23 : S1x128.Idx → EReal)
    (iblk0 V c 0 t) (iblk0 V c 1 t) (iblk0 V c 2 t) (iblk0 V c 3 t) (iblk0 V c 4 t) (iblk0 V c 5 t) t.val
    (fun y => ((cfg0.win 6).blk t).view.emb y)
    (fun y => by show win0_6.index t (0 : Fin 2) * 5000 + 1 * (y 0).val = 5000 * t.val + (y 0).val; rw [e0]; omega)
    (fun y => by show win0_6.index t (1 : Fin 2) * 128 + 1 * (y 1).val = (y 1).val; rw [e1]; omega)
    (fun p k r hr => blk0_0 V c t p k r hr) (fun p k r hr => blk0_1 V c t p k r hr) (fun p r hr => blk0_2 V c t p r hr)
    (blk0_3 V c t) (blk0_4 V c t) (blk0_5 V c t)

/-- An index of the result array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- Every row of the result lies in a block that is written back: row `r` in the block of point `r / 5000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨-, -, -, -, -, -, ⟨e0, e1⟩⟩ := idx_facts0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- THE RESULT ARRAY after the first launch is the layer of the operand arrays as the launch finds them. -/
theorem arr0 (c : Dev nD) :
    ((dat0 (F := Ideal) V c).arrAt 6 cfg0.N : S50000x128.Idx → EReal)
      = layerK (V c main_arg0 : S50000x128.Idx → EReal) (V c main_v20 : S50000x128.Idx → EReal) (V c main_v8 : S50000x1.Idx → EReal)
        (V c main_v21 : S128x128.Idx → EReal) (V c main_v22 : S128x128.Idx → EReal) (V c main_v23 : S1x128.Idx → EReal) :=
  (dat0 (F := Ideal) V c).arrAt_eq_of_cover 6 _ (fun t _ => flushed0_eq V c t) cover0

end Launch0

/-! ## The second launch -/

section Launch1

variable (V : (c : Dev nD) → (b : Ref sig .tc) → Buf (Elt Ideal) ((c : Thread nD τ).loc b))

/-- The printed index maps, decided once over the 10 grid points: a row-tiled window (the three row-tiled operands and the result) is at
    block `t` of the rows and block 0 of the columns; a weight or bias window is at block 0 on both axes. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- The block of the node array at point `t` holds rows `5000·t + p`. -/
theorem blk1_0 (c : Dev nD) (t : Fin cfg1.N) (p : Fin 5000) (k : Fin 128) (r : Fin 50000) (hr : r.val = 5000 * t.val + p.val) :
    (iblk1 V c 0 t : Vec Ideal S5000x128 .f32) (ix2 p k) = (V c main_v24 : S50000x128.Idx → EReal) (ix2 r k) := by
  obtain ⟨⟨e0, e1⟩, -⟩ := idx_facts1 t
  unfold iblk1
  rw [View.read_apply]
  show (V c main_v24 : S50000x128.Idx → EReal) _ = _
  refine congrArg (V c main_v24 : S50000x128.Idx → EReal) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The block of the neighbour sum at point `t` holds rows `5000·t + p`. -/
theorem blk1_1 (c : Dev nD) (t : Fin cfg1.N) (p : Fin 5000) (k : Fin 128) (r : Fin 50000) (hr : r.val = 5000 * t.val + p.val) :
    (iblk1 V c 1 t : Vec Ideal S5000x128 .f32) (ix2 p k) = (V c main_v36 : S50000x128.Idx → EReal) (ix2 r k) := by
  obtain ⟨-, ⟨e0, e1⟩, -⟩ := idx_facts1 t
  unfold iblk1
  rw [View.read_apply]
  show (V c main_v36 : S50000x128.Idx → EReal) _ = _
  refine congrArg (V c main_v36 : S50000x128.Idx → EReal) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The block of the reciprocal-degree column at point `t` holds rows `5000·t + p`. -/
theorem blk1_2 (c : Dev nD) (t : Fin cfg1.N) (p : Fin 5000) (r : Fin 50000) (hr : r.val = 5000 * t.val + p.val) :
    (iblk1 V c 2 t : Vec Ideal S5000x1 .f32) (ix2 p (0 : Fin 1)) = (V c main_v8 : S50000x1.Idx → EReal) (ix2 r (0 : Fin 1)) := by
  obtain ⟨-, -, ⟨e0, e1⟩, -⟩ := idx_facts1 t
  unfold iblk1
  rw [View.read_apply]
  show (V c main_v8 : S50000x1.Idx → EReal) _ = _
  refine congrArg (V c main_v8 : S50000x1.Idx → EReal) (funext fun a => Fin.ext ?_)
  match a with
  | ⟨0, _⟩ => show win1_2.index t (0 : Fin 2) * 5000 + 1 * p.val = r.val; rw [e0, hr]; omega
  | ⟨1, _⟩ => show win1_2.index t (1 : Fin 2) * 1 + 1 * 0 = 0; rw [e1]

/-- The self weight's block is the whole matrix at every point. -/
theorem blk1_3 (c : Dev nD) (t : Fin cfg1.N) :
    (iblk1 V c 3 t : Vec Ideal S128x128 .bf16) = (V c main_v37 : S128x128.Idx → EReal) := by
  obtain ⟨-, -, -, ⟨e0, e1⟩, -⟩ := idx_facts1 t
  funext y
  unfold iblk1
  rw [View.read_apply]
  show (V c main_v37 : S128x128.Idx → EReal) _ = _
  refine congrArg (V c main_v37 : S128x128.Idx → EReal) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The neighbour weight's block is the whole matrix at every point. -/
theorem blk1_4 (c : Dev nD) (t : Fin cfg1.N) :
    (iblk1 V c 4 t : Vec Ideal S128x128 .bf16) = (V c main_v38 : S128x128.Idx → EReal) := by
  obtain ⟨-, -, -, -, ⟨e0, e1⟩, -⟩ := idx_facts1 t
  funext y
  unfold iblk1
  rw [View.read_apply]
  show (V c main_v38 : S128x128.Idx → EReal) _ = _
  refine congrArg (V c main_v38 : S128x128.Idx → EReal) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The bias row's block is the whole row at every point. -/
theorem blk1_5 (c : Dev nD) (t : Fin cfg1.N) :
    (iblk1 V c 5 t : Vec Ideal S1x128 .f32) = (V c main_v39 : S1x128.Idx → EReal) := by
  obtain ⟨-, -, -, -, -, ⟨e0, e1⟩, -⟩ := idx_facts1 t
  funext y
  unfold iblk1
  rw [View.read_apply]
  show (V c main_v39 : S1x128.Idx → EReal) _ = _
  refine congrArg (V c main_v39 : S1x128.Idx → EReal) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- What the body leaves in the result's staging buffer is the layer of the staged blocks: its one store covers the buffer, its loads
    read the buffers whole, and the stored value is the body's arithmetic entry by entry. -/
theorem out1_eq (x0 x1 : Vec Ideal S5000x128 .f32) (x2 : Vec Ideal S5000x1 .f32) (x3 x4 : Vec Ideal S128x128 .bf16)
    (x5 : Vec Ideal S1x128 .f32) :
    out1_6 (F := Ideal) x0 x1 x2 x3 x4 x5 = layerK x0 x1 x2 x3 x4 x5 := by
  funext y
  obtain ⟨p, q, rfl⟩ : ∃ (p : Fin 5000) (q : Fin 128), y = ix2 p q := ⟨y 0, y 1, eq_ix2 y⟩
  unfold out1_6
  rw [View.canon_unit_zero hz]
  simp only [View.ld_unit_zero (S := S5000x128) hz, View.ld_unit_zero (S := S5000x1) hz, View.ld_unit_zero (S := S128x128) hz,
    View.ld_unit_zero (S := S1x128) hz]
  exact pay1_apply x0 x1 x2 x3 x4 x5 p q

/-- WHAT POINT `t` WRITES BACK is block `t` of the layer of the operand arrays as the launch finds them. -/
theorem flushed1_eq (c : Dev nD) (t : Fin cfg1.N) :
    (dat1 (F := Ideal) V c).flushed 6 t = ((cfg1.win 6).blk t).view.read (Elt Ideal)
      (layerK (V c main_v24 : S50000x128.Idx → EReal) (V c main_v36 : S50000x128.Idx → EReal) (V c main_v8 : S50000x1.Idx → EReal)
        (V c main_v37 : S128x128.Idx → EReal) (V c main_v38 : S128x128.Idx → EReal) (V c main_v39 : S1x128.Idx → EReal)) := by
  show (cfg1.win 6).cut (grid1.coords t) ((dat1 V c).after 6 t) = _
  rw [after1_6, out1_eq (iblk1 V c 0 t) (iblk1 V c 1 t) (iblk1 V c 2 t) (iblk1 V c 3 t) (iblk1 V c 4 t) (iblk1 V c 5 t)]
  obtain ⟨-, -, -, -, -, -, ⟨e0, e1⟩⟩ := idx_facts1 t
  exact layerK_block (V c main_v24 : S50000x128.Idx → EReal) (V c main_v36 : S50000x128.Idx → EReal) (V c main_v8 : S50000x1.Idx → EReal)
    (V c main_v37 : S128x128.Idx → EReal) (V c main_v38 : S128x128.Idx → EReal) (V c main_v39 : S1x128.Idx → EReal)
    (iblk1 V c 0 t) (iblk1 V c 1 t) (iblk1 V c 2 t) (iblk1 V c 3 t) (iblk1 V c 4 t) (iblk1 V c 5 t) t.val
    (fun y => ((cfg1.win 6).blk t).view.emb y)
    (fun y => by show win1_6.index t (0 : Fin 2) * 5000 + 1 * (y 0).val = 5000 * t.val + (y 0).val; rw [e0]; omega)
    (fun y => by show win1_6.index t (1 : Fin 2) * 128 + 1 * (y 1).val = (y 1).val; rw [e1]; omega)
    (fun p k r hr => blk1_0 V c t p k r hr) (fun p k r hr => blk1_1 V c t p k r hr) (fun p r hr => blk1_2 V c t p r hr)
    (blk1_3 V c t) (blk1_4 V c t) (blk1_5 V c t)

/-- An index of the result array is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v40).slice (win1_6.rect t)).set ↔ _
  rw [View.set_slice_whole, Rect.mem_set_unit]
  exact Iff.rfl

/-- Every row of the result lies in a block that is written back: row `r` in the block of point `r / 5000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨-, -, -, -, -, -, ⟨e0, e1⟩⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- THE RESULT ARRAY after the second launch is the layer of the operand arrays as the launch finds them. -/
theorem arr1 (c : Dev nD) :
    ((dat1 (F := Ideal) V c).arrAt 6 cfg1.N : S50000x128.Idx → EReal)
      = layerK (V c main_v24 : S50000x128.Idx → EReal) (V c main_v36 : S50000x128.Idx → EReal) (V c main_v8 : S50000x1.Idx → EReal)
        (V c main_v37 : S128x128.Idx → EReal) (V c main_v38 : S128x128.Idx → EReal) (V c main_v39 : S1x128.Idx → EReal) :=
  (dat1 (F := Ideal) V c).arrAt_eq_of_cover 6 _ (fun t _ => flushed1_eq V c t) cover1

end Launch1

end Cert.Sage.KLayer

end
-- ==== Proof.KTailBody.lean ====
/-
  The last two regions' arithmetic, entry by entry.

  The projection region multiplies a block of 5000 rows of the node array (rounded to the narrow float format, which on the
  extended reals changes nothing) by the whole 128 × 64 neighbour weight: entry (p, q) of what it stores is
  Σ_k x[p, k] · w[k, q].  The output region does the same with the self weight and then adds, entry by entry, the block of
  neighbour sums scaled by the block of reciprocal degrees (a column, repeated along the 64 columns) and the bias (a row,
  repeated along the 5000 rows): entry (p, q) is (Σ_k x[p, k] · w[k, q] + agg[p, q] · inv[p, 0]) + b[0, q].
-/
import proofs.«145628_j19851338842541_2_alg».proof.Proof.Gen.KernelIdeal.Skeleton
import proofs.«145628_j19851338842541_2_alg».proof.Proof.Spec
import proofs.«145628_j19851338842541_2_alg».proof.Proof.LibDotCols
import Idealize.ShloMosaic.Lib.ValueIdx
import Idealize.ShloMosaic.Lib.ValueLayout
import Idealize.ShloMosaic.PureOps.Ideal.Laws

noncomputable section

open scoped BigOperators

namespace Cert.Sage.KTail

open Idealize.ShloMosaic Idealize.ShloMosaic.ValueIdx
open Cert.KernelIdeal Cert.KernelIdeal.Gen

/-- A column `[a, 1]` repeated along `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The projection region's stored block at `(p, q)`: row `p` of the loaded rows against column `q` of the weight. -/
theorem proj_payload (x0 : Vec Ideal S5000x128 .f32) (x1 : Vec Ideal S128x64 .bf16) (p : Fin 5000) (q : Fin 64) :
    k2_pay1 (F := Ideal) x0 x1 (ix2 p q) = ∑ k : Fin 128, x0 (ix2 p k) * x1 (ix2 k q) := by
  unfold k2_pay1
  refine (Cert.Lib.DotCols.matmul_cols_apply (M := 5000) (K := 128) (N := 64) _ rfl none _ _ p q).trans ?_
  refine Finset.sum_congr rfl fun k _ => ?_
  rw [shapeCast_self, shapeCast_self]
  rfl

/-- The output region's stored block at `(p, q)`: the self term, plus the neighbour sum scaled by the reciprocal degree of
    row `p`, plus the bias of column `q`. -/
theorem out_payload (x0 : Vec Ideal S5000x128 .f32) (x1 : Vec Ideal S5000x64 .f32) (x2 : Vec Ideal S5000x1 .f32)
    (x3 : Vec Ideal S128x64 .bf16) (x4 : Vec Ideal S1x64 .f32) (p : Fin 5000) (q : Fin 64) :
    k3_pay1 (F := Ideal) x0 x1 x2 x3 x4 (ix2 p q) = Cert.Sage.outAtK x0 x1 x2 x3 x4 p q := by
  unfold k3_pay1 Cert.Sage.outAtK
  show (FloatOps.matmul dot_S5000x128_S128x64_S5000x64_1_0_0_1_n_n none _ _ (constant (F := Ideal) S5000x64 .f32 0x00000000#32) (ix2 p q)
      + shapeCast S5000x64 x1 shapeCasts_S5000x64_S5000x64 (ix2 p q)
        * broadcastTo S5000x64 (shapeCast S5000x1 x2 shapeCasts_S5000x1_S5000x1) broadcasts_S5000x1_S5000x64 (ix2 p q))
      + broadcastTo S5000x64 (shapeCast S1x64 x4 shapeCasts_S1x64_S1x64) broadcasts_S1x64_S5000x64 (ix2 p q) = _
  rw [Cert.Lib.DotCols.matmul_cols_apply (M := 5000) (K := 128) (N := 64) dot_S5000x128_S128x64_S5000x64_1_0_0_1_n_n rfl none _ _ p q,
    broadcastTo_a1_ab_apply, broadcastTo_1b_ab_apply]
  simp only [shapeCast_self]
  rfl

end Cert.Sage.KTail

end
-- ==== Proof.KTail.lean ====
/-
  The last two regions read as whole arrays.

  Both regions walk a grid of ten points; at point `t` every row-tiled operand's block is rows 5000·t … 5000·t + 4999 of its
  array (all columns), the weight and the bias blocks are the whole arrays, and the block written back is rows
  5000·t … 5000·t + 4999 of the output.  Since entry (p, q) of the stored block depends only on row p of the row-tiled blocks,
  what point `t` writes back is the restriction to its rows of ONE function of the arrays as the region finds them — the
  projected rows `projK` for the first of the two regions, the last layer `outK` for the second —, and since row r lies in the
  block of point r / 5000, the ten blocks cover the output: after the region the output array is that function.
-/
import proofs.«145628_j19851338842541_2_alg».proof.Proof.Gen.KernelIdeal.Frame
import proofs.«145628_j19851338842541_2_alg».proof.Proof.Spec
import proofs.«145628_j19851338842541_2_alg».proof.Proof.KTailBody
import Idealize.ShloMosaic.Lib.Pipeline.Value
import Idealize.ShloMosaic.Lib.ValueIdx

set_option maxRecDepth 16384

noncomputable section

open scoped BigOperators

namespace Cert.Sage.KTail

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The zero offsets of a whole-buffer access, however spelt. -/
theorem zero_offsets : (![0, 0] : Fin 2 → Nat) = fun _ => 0 := funext fun a => by fin_cases a <;> rfl

/-! ## The projection region -/

/-- The block indices over the grid: the rows' and the output's blocks move with the point along axis 0, the weight's block
    stays at the origin. -/
theorem proj_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- The rows' block at point `t` is rows 5000·t … of the node array. -/
theorem proj_rows_block (c : Dev nD) (t : Fin cfg2.N) (p : Fin 5000) (k : Fin 128) (r : Fin 50000)
    (hr : r.val = 5000 * t.val + p.val) :
    (iblk2 V c 0 t : Vec Ideal S5000x128 .f32) (ix2 p k) = (V c main_v40 : S50000x128.Idx → EReal) (ix2 r k) := by
  obtain ⟨e0, e1, -⟩ := proj_index_facts t
  unfold iblk2
  rw [View.read_apply]
  show (V c main_v40 : S50000x128.Idx → EReal) _ = _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight's block at every point is the weight. -/
theorem proj_weight_block (c : Dev nD) (t : Fin cfg2.N) (k : Fin 128) (q : Fin 64) :
    (iblk2 V c 1 t : Vec Ideal S128x64 .bf16) (ix2 k q) = (V c main_v41 : S128x64.Idx → EReal) (ix2 k q) := by
  obtain ⟨-, -, e2, e3, -⟩ := proj_index_facts t
  unfold iblk2
  rw [View.read_apply]
  show (V c main_v41 : S128x64.Idx → EReal) _ = _
  congr 1
  funext a
  apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- WHAT POINT `t` WRITES BACK is block `t` of the projected rows of the arrays as the region finds them. -/
theorem proj_flushed (c : Dev nD) (t : Fin cfg2.N) :
    (dat2 (F := Ideal) V c).flushed 2 t = ((cfg2.win 2).blk t).view.read (Elt Ideal)
      (Cert.Sage.projK (V c main_v40 : S50000x128.Idx → EReal) (V c main_v41 : S128x64.Idx → EReal)) := by
  show (cfg2.win 2).cut (grid2.coords t) ((dat2 (F := Ideal) V c).after 2 t) = _
  rw [after2_2]
  unfold out2_2
  rw [View.canon_unit_zero zero_offsets]
  simp only [View.ld_unit_zero (S := S5000x128) zero_offsets, View.ld_unit_zero (S := S128x64) zero_offsets]
  obtain ⟨-, -, -, -, e4, e5, ht⟩ := proj_index_facts t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hr : 5000 * t.val + p.val < 50000 := by omega
  have hidx : ((cfg2.win 2).blk t).view.emb (ix2 p q) = (ix2 (⟨5000 * t.val + p.val, hr⟩ : Fin 50000) q : S50000x64.Idx) := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 64 + 1 * q.val = q.val; rw [e5]; omega
  show k2_pay1 (F := Ideal) (iblk2 V c 0 t) (iblk2 V c 1 t) (ix2 p q)
      = Cert.Sage.projK (V c main_v40 : S50000x128.Idx → EReal) (V c main_v41 : S128x64.Idx → EReal) (((cfg2.win 2).blk t).view.emb (ix2 p q))
  rw [hidx, Cert.Sage.projK_apply]
  refine (proj_payload (iblk2 V c 0 t) (iblk2 V c 1 t) p q).trans ?_
  refine Finset.sum_congr rfl fun k _ => ?_
  rw [proj_rows_block V c t p k ⟨5000 * t.val + p.val, hr⟩ rfl, proj_weight_block V c t k q]

/-- An index of the output is in point `t`'s block iff each coordinate is in the block's range on its axis. -/
theorem proj_mem_block (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v42).slice (win2_2.rect t)).set ↔ _
  rw [View.set_slice_whole, Rect.mem_set_unit]
  exact Iff.rfl

/-- Every block of rows is some point's. -/
theorem proj_index_onto : ∀ b : Fin 10, ∃ t : Fin cfg2.N, win2_2.index t = ![b.val, 0] :=
  (by decide +kernel : ∀ b : Fin 10, ∃ t : Fin grid2.N, win2_2.index t = ![b.val, 0])

/-- Row r of the output lies in the block of point r / 5000. -/
theorem proj_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := proj_index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [proj_mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE PROJECTION REGION'S OUTPUT after the region: the projected rows of the arrays as the region finds them. -/
theorem arr2 (c : Dev nD) :
    ((dat2 (F := Ideal) V c).arrAt 2 cfg2.N : S50000x64.Idx → EReal)
      = Cert.Sage.projK (V c main_v40 : S50000x128.Idx → EReal) (V c main_v41 : S128x64.Idx → EReal) :=
  (dat2 (F := Ideal) V c).arrAt_eq_of_cover 2
    (Cert.Sage.projK (V c main_v40 : S50000x128.Idx → EReal) (V c main_v41 : S128x64.Idx → EReal))
    (fun t _ => proj_flushed V c t) proj_cover

/-! ## The output region -/

/-- The block indices over the grid: the three row-tiled inputs' and the output's blocks move with the point along axis 0,
    the weight's and the bias's blocks stay at the origin. -/
theorem out_index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 10 :=
  (by decide +kernel : ∀ t : Fin grid3.N, _)

/-- The rows' block at point `t` is rows 5000·t … of the node array. -/
theorem out_rows_block (c : Dev nD) (t : Fin cfg3.N) (p : Fin 5000) (k : Fin 128) (r : Fin 50000)
    (hr : r.val = 5000 * t.val + p.val) :
    (iblk3 V c 0 t : Vec Ideal S5000x128 .f32) (ix2 p k) = (V c main_v40 : S50000x128.Idx → EReal) (ix2 r k) := by
  obtain ⟨e0, e1, -⟩ := out_index_facts t
  unfold iblk3
  rw [View.read_apply]
  show (V c main_v40 : S50000x128.Idx → EReal) _ = _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- The neighbour sums' block at point `t` is rows 5000·t … of the neighbour-sum array. -/
theorem out_agg_block (c : Dev nD) (t : Fin cfg3.N) (p : Fin 5000) (q : Fin 64) (r : Fin 50000)
    (hr : r.val = 5000 * t.val + p.val) :
    (iblk3 V c 1 t : Vec Ideal S5000x64 .f32) (ix2 p q) = (V c main_v54 : S50000x64.Idx → EReal) (ix2 r q) := by
  obtain ⟨-, -, e0, e1, -⟩ := out_index_facts t
  unfold iblk3
  rw [View.read_apply]
  show (V c main_v54 : S50000x64.Idx → EReal) _ = _
  congr 1
  funext a
  apply Fin.ext
  match a with
  | ⟨0, _⟩ => show win3_1.index t (0 : Fin 2) * 5000 + 1 * p.val = r.val; rw [e0, hr]; omega
  | ⟨1, _⟩ => show win3_1.index t (1 : Fin 2) * 64 + 1 * q.val = q.val; rw [e1]; omega

/-- The reciprocal degrees' block at point `t` is rows 5000·t … of the reciprocal-degree column. -/
theorem out_inv_block (c : Dev nD) (t : Fin cfg3.N) (p : Fin 5000) (r : Fin 50000)
    (hr : r.val = 5000 * t.val + p.val) :
    (iblk3 V c 2 t : Vec Ideal S5000x1 .f32) (ix2 p (0 : Fin 1)) = (V c main_v8 : S50000x1.Idx → EReal) (ix2 r (0 : Fin 1)) := by
  obtain ⟨-, -, -, -, e0, e1, -⟩ := out_index_facts t
  unfold iblk3
  rw [View.read_apply]
  show (V c main_v8 : S50000x1.Idx → EReal) _ = _
  congr 1
  funext a
  apply Fin.ext
  match a with
  | ⟨0, _⟩ => show win3_2.index t (0 : Fin 2) * 5000 + 1 * p.val = r.val; rw [e0, hr]; omega
  | ⟨1, _⟩ => show win3_2.index t (1 : Fin 2) * 1 + 1 * 0 = 0; rw [e1]

/-- The weight's block at every point is the weight. -/
theorem out_weight_block (c : Dev nD) (t : Fin cfg3.N) (k : Fin 128) (q : Fin 64) :
    (iblk3 V c 3 t : Vec Ideal S128x64 .bf16) (ix2 k q) = (V c main_v55 : S128x64.Idx → EReal) (ix2 k q) := by
  obtain ⟨-, -, -, -, -, -, e0, e1, -⟩ := out_index_facts t
  unfold iblk3
  rw [View.read_apply]
  show (V c main_v55 : S128x64.Idx → EReal) _ = _
  congr 1
  funext a
  apply Fin.ext
  match a with
  | ⟨0, _⟩ => show win3_3.index t (0 : Fin 2) * 128 + 1 * k.val = k.val; rw [e0]; omega
  | ⟨1, _⟩ => show win3_3.index t (1 : Fin 2) * 64 + 1 * q.val = q.val; rw [e1]; omega

/-- The bias's block at every point is the bias. -/
theorem out_bias_block (c : Dev nD) (t : Fin cfg3.N) (q : Fin 64) :
    (iblk3 V c 4 t : Vec Ideal S1x64 .f32) (ix2 (0 : Fin 1) q) = (V c main_v56 : S1x64.Idx → EReal) (ix2 (0 : Fin 1) q) := by
  obtain ⟨-, -, -, -, -, -, -, -, e0, e1, -⟩ := out_index_facts t
  unfold iblk3
  rw [View.read_apply]
  show (V c main_v56 : S1x64.Idx → EReal) _ = _
  congr 1
  funext a
  apply Fin.ext
  match a with
  | ⟨0, _⟩ => show win3_4.index t (0 : Fin 2) * 1 + 1 * 0 = 0; rw [e0]
  | ⟨1, _⟩ => show win3_4.index t (1 : Fin 2) * 64 + 1 * q.val = q.val; rw [e1]; omega

/-- Two entries of the last layer with the same neighbour term and bias agree when their self terms do. -/
theorem self_term_congr {s s' a b d : EReal} (h : s = s') : s + a * b + d = s' + a * b + d := by rw [h]

/-- WHAT POINT `t` WRITES BACK is block `t` of the last layer of the arrays as the region finds them. -/
theorem out_flushed (c : Dev nD) (t : Fin cfg3.N) :
    (dat3 (F := Ideal) V c).flushed 5 t = ((cfg3.win 5).blk t).view.read (Elt Ideal)
      (Cert.Sage.outK (V c main_v40 : S50000x128.Idx → EReal) (V c main_v54 : S50000x64.Idx → EReal)
        (V c main_v8 : S50000x1.Idx → EReal) (V c main_v55 : S128x64.Idx → EReal) (V c main_v56 : S1x64.Idx → EReal)) := by
  show (cfg3.win 5).cut (grid3.coords t) ((dat3 (F := Ideal) V c).after 5 t) = _
  rw [after3_5]
  unfold out3_5
  rw [View.canon_unit_zero zero_offsets]
  simp only [View.ld_unit_zero (S := S5000x128) zero_offsets, View.ld_unit_zero (S := S5000x64) zero_offsets,
    View.ld_unit_zero (S := S5000x1) zero_offsets, View.ld_unit_zero (S := S128x64) zero_offsets,
    View.ld_unit_zero (S := S1x64) zero_offsets]
  obtain ⟨-, -, -, -, -, -, -, -, -, -, e4, e5, ht⟩ := out_index_facts t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hr : 5000 * t.val + p.val < 50000 := by omega
  have hidx : ((cfg3.win 5).blk t).view.emb (ix2 p q) = (ix2 (⟨5000 * t.val + p.val, hr⟩ : Fin 50000) q : S50000x64.Idx) := by
    funext a
    apply Fin.ext
    match a with
    | ⟨0, _⟩ => show win3_5.index t (0 : Fin 2) * 5000 + 1 * p.val = 5000 * t.val + p.val; rw [e4]; omega
    | ⟨1, _⟩ => show win3_5.index t (1 : Fin 2) * 64 + 1 * q.val = q.val; rw [e5]; omega
  show k3_pay1 (F := Ideal) (iblk3 V c 0 t) (iblk3 V c 1 t) (iblk3 V c 2 t) (iblk3 V c 3 t) (iblk3 V c 4 t) (ix2 p q)
      = Cert.Sage.outK (V c main_v40 : S50000x128.Idx → EReal) (V c main_v54 : S50000x64.Idx → EReal)
          (V c main_v8 : S50000x1.Idx → EReal) (V c main_v55 : S128x64.Idx → EReal) (V c main_v56 : S1x64.Idx → EReal)
          (((cfg3.win 5).blk t).view.emb (ix2 p q))
  rw [hidx, Cert.Sage.outK_apply]
  refine (out_payload (iblk3 V c 0 t) (iblk3 V c 1 t) (iblk3 V c 2 t) (iblk3 V c 3 t) (iblk3 V c 4 t) p q).trans ?_
  unfold Cert.Sage.outAtK
  rw [out_agg_block V c t p q ⟨5000 * t.val + p.val, hr⟩ rfl, out_inv_block V c t p ⟨5000 * t.val + p.val, hr⟩ rfl,
    out_bias_block V c t q]
  refine self_term_congr ?_
  refine Finset.sum_congr rfl fun k _ => ?_
  rw [out_rows_block V c t p k ⟨5000 * t.val + p.val, hr⟩ rfl, out_weight_block V c t k q]

/-- An index of the output is in point `t`'s block iff each coordinate is in the block's range on its axis. -/
theorem out_mem_block (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v57).slice (win3_5.rect t)).set ↔ _
  rw [View.set_slice_whole, Rect.mem_set_unit]
  exact Iff.rfl

/-- Every block of rows is some point's. -/
theorem out_index_onto : ∀ b : Fin 10, ∃ t : Fin cfg3.N, win3_5.index t = ![b.val, 0] :=
  (by decide +kernel : ∀ b : Fin 10, ∃ t : Fin grid3.N, win3_5.index t = ![b.val, 0])

/-- Row r of the output lies in the block of point r / 5000. -/
theorem out_cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := out_index_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [out_mem_block]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- THE OUTPUT REGION'S OUTPUT after the region: the last layer of the arrays as the region finds them. -/
theorem arr3 (c : Dev nD) :
    ((dat3 (F := Ideal) V c).arrAt 5 cfg3.N : S50000x64.Idx → EReal)
      = Cert.Sage.outK (V c main_v40 : S50000x128.Idx → EReal) (V c main_v54 : S50000x64.Idx → EReal)
          (V c main_v8 : S50000x1.Idx → EReal) (V c main_v55 : S128x64.Idx → EReal) (V c main_v56 : S1x64.Idx → EReal) :=
  (dat3 (F := Ideal) V c).arrAt_eq_of_cover 5
    (Cert.Sage.outK (V c main_v40 : S50000x128.Idx → EReal) (V c main_v54 : S50000x64.Idx → EReal)
      (V c main_v8 : S50000x1.Idx → EReal) (V c main_v55 : S128x64.Idx → EReal) (V c main_v56 : S1x64.Idx → EReal))
    (fun t _ => out_flushed V c t) out_cover

end Cert.Sage.KTail

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.Finite.lean ====
/-
  The precondition, read entry by entry: every float argument holds real numbers.

  The precondition is the conjunction, over the ten float arguments, of "every entry's absolute value is below
  +∞".  On the extended reals `|a| = max a (-a)`, and `max a (-a) < ⊤` says that `a` is neither infinity.
-/
import proofs.«145628_j19851338842541_2_alg».proof.Pre_finite_inputs
import proofs.«145628_j19851338842541_2_alg».proof.Proof.LibRealSums
import Idealize.ShloMosaic.Lib.ReduceAll
import Idealize.ShloMosaic.Lib.Affine
import Idealize.ShloMosaic.Lib.ValueIdx
import Idealize.ShloMosaic.PureOps.Ideal.Laws

noncomputable section

namespace Cert.Sage.Finite

open Idealize.ShloMosaic Idealize.ShloMosaic.ValueIdx Cert.Pre_finite_inputs Cert.Lib.RealSums

instance : Subsingleton S_.Idx := ⟨fun a b => funext fun d => d.elim0⟩

/-- The word of +∞ is the top of the extended reals. -/
theorem ofBits_inf : Ideal.ofBits .f32 0x7F800000#32 = ⊤ := by simp [Ideal.ofBits, Ideal.ieee]

/-- An extended real whose absolute value is below +∞ is a real. -/
theorem fin'_of_abs_lt (a : EReal) (h : Ideal.cmp .olt (max a (-a)) ⊤ = 1#1) : Fin' a := by
  have hlt : max a (-a) < ⊤ := by
    unfold Ideal.cmp at h
    by_contra hc
    simp [hc] at h
  constructor
  · intro e; rw [e] at hlt; simp at hlt
  · intro e; rw [e] at hlt; simp at hlt

/-- One conjunct of the precondition at an entry: the comparison of `|a|` with the broadcast +∞ holds there, so the entry is a real. -/
theorem fin'_of_cmp {s : Shape} (a : FVec Ideal s .f32) (hb : S_.BroadcastsInDim s ![]) (i : s.Idx)
    (h : cmpf .olt (Host.absf a) (broadcastInDim s ![] hb (constant (F := Ideal) S_ .f32 0x7F800000#32)) i = 1#1) : Fin' (a i) := by
  refine fin'_of_abs_lt (a i) ?_
  have e : cmpf .olt (Host.absf a) (broadcastInDim s ![] hb (constant (F := Ideal) S_ .f32 0x7F800000#32)) i
      = Ideal.cmp .olt (max (a i) (-(a i))) ⊤ := by
    simp only [cmpf, Host.absf, broadcastInDim, constant, Ideal.cmpf_def, Ideal.hostAbsf_def, Ideal.absf_def, Ideal.ofBits_def, ofBits_inf]
  rw [← e]; exact h

/-- THE PRECONDITION, ENTRY BY ENTRY: each of the ten float arguments holds reals only. -/
theorem of_pre [Cert.Pre_finite_inputs.Facts] (x : FVec Ideal S50000x128 .f32) (src dst : IVec S800000 32) (Ws0 Wn0 : FVec Ideal S128x128 .f32)
    (b0 : FVec Ideal S128 .f32) (Ws1 Wn1 : FVec Ideal S128x128 .f32) (b1 : FVec Ideal S128 .f32)
    (Ws2 Wn2 : FVec Ideal S128x64 .f32) (b2 : FVec Ideal S64 .f32)
    (h : fn (F := Ideal) x src dst Ws0 Wn0 b0 Ws1 Wn1 b1 Ws2 Wn2 b2 = fun _ => 1#1) :
    (∀ i, Fin' (x i)) ∧ (∀ i, Fin' (Ws0 i)) ∧ (∀ i, Fin' (Wn0 i)) ∧ (∀ i, Fin' (b0 i)) ∧ (∀ i, Fin' (Ws1 i)) ∧ (∀ i, Fin' (Wn1 i))
      ∧ (∀ i, Fin' (b1 i)) ∧ (∀ i, Fin' (Ws2 i)) ∧ (∀ i, Fin' (Wn2 i)) ∧ (∀ i, Fin' (b2 i)) := by
  have h0 := congrFun h ix0
  dsimp only [fn, fn_part1, fn_part2] at h0
  simp only [andi, IntOp.andi_eq_one] at h0
  obtain ⟨⟨⟨⟨⟨⟨⟨⟨⟨h1, h2⟩, h3⟩, h4⟩, h5⟩, h6⟩, h7⟩, h8⟩, h9⟩, h10⟩ := h0
  exact ⟨fun i => fin'_of_cmp x _ i (Host.reduce_andi_all _ _ _ _ _ h1 i),
    fun i => fin'_of_cmp Ws0 _ i (Host.reduce_andi_all _ _ _ _ _ h2 i),
    fun i => fin'_of_cmp Wn0 _ i (Host.reduce_andi_all _ _ _ _ _ h3 i),
    fun i => fin'_of_cmp b0 _ i (Host.reduce_andi_all _ _ _ _ _ h4 i),
    fun i => fin'_of_cmp Ws1 _ i (Host.reduce_andi_all _ _ _ _ _ h5 i),
    fun i => fin'_of_cmp Wn1 _ i (Host.reduce_andi_all _ _ _ _ _ h6 i),
    fun i => fin'_of_cmp b1 _ i (Host.reduce_andi_all _ _ _ _ _ h7 i),
    fun i => fin'_of_cmp Ws2 _ i (Host.reduce_andi_all _ _ _ _ _ h8 i),
    fun i => fin'_of_cmp Wn2 _ i (Host.reduce_andi_all _ _ _ _ _ h9 i),
    fun i => fin'_of_cmp b2 _ i (Host.reduce_andi_all _ _ _ _ _ h10 i)⟩

end Cert.Sage.Finite

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.Ops.lean ====
/-
  The host operations around the dense layers, read entry by entry on the extended reals.

  * The neighbour sum: rows gathered along the source column and scatter-added along the destination column into a zero
    array are `segSum`: entry `(p, q)` is the sum over the edges whose destination word reads `p` of the entry `q` of the
    row the source word addresses (read signed and clamped).
  * The degree column `max(count, 1)` is at least one, hence nowhere zero, and the reciprocal column is `1 / degree`.
  * A change of float format is the identity; a vector cast to one row reads the vector.
-/
import proofs.«145628_j19851338842541_2_alg».proof.Proof.Spec
import proofs.«145628_j19851338842541_2_alg».proof.Proof.LibSegments
import proofs.«145628_j19851338842541_2_alg».proof.Proof.LibScatterRows
import Idealize.ShloMosaic.Lib.Pipeline.Value
import Idealize.ShloMosaic.Lib.ValueLayout
import Idealize.ShloMosaic.PureOps.Ideal.Laws

noncomputable section

open scoped BigOperators

namespace Cert.Sage.Ops

open Idealize.ShloMosaic Idealize.ShloMosaic.ValueIdx Cert.Sage

variable {N E C : Nat}

/-- The word of 1.0 is the real one. -/
theorem ofBits_one : Ideal.ofBits .f32 0x3F800000#32 = 1 := by
  simp [Ideal.ofBits, Ideal.ieee]
  rw [← EReal.coe_mul, ← EReal.coe_one]
  exact congrArg _ (by norm_num)

/-- A scalar broadcast to any shape reads the scalar. -/
theorem splat_apply {α : Type} {s : Shape} (hb : (⟨0, ![]⟩ : Shape).BroadcastsInDim s ![]) (v : (⟨0, ![]⟩ : Shape).Idx → α) (i : s.Idx) :
    broadcastInDim s ![] hb v i = v ix0 :=
  broadcastInDim_apply _ hb v i ix0 (fun a => a.elim0)

/-- A vector laid out as a column reads, at row `p`, the vector's entry `p`. -/
theorem column_apply {α : Type} (hb : (⟨1, ![N]⟩ : Shape).BroadcastsInDim ⟨2, ![N, 1]⟩ ![0]) (v : (⟨1, ![N]⟩ : Shape).Idx → α)
    (p : Fin N) (u : Fin 1) : broadcastInDim ⟨2, ![N, 1]⟩ ![0] hb v (ix2 p u) = v (ix1 p) :=
  broadcastInDim_apply _ hb v (ix2 p u) (ix1 p) (fun a => by
    match a with
    | ⟨0, _⟩ =>
      show p.val = if N = 1 then 0 else p.val
      split_ifs with h
      · have := p.isLt; omega
      · rfl)

/-- THE NEIGHBOUR SUM. For any scatter record that adds whole rows by one row number and any gather record that takes whole
    rows by one row number, the rows of `H` gathered along `srcc` and scatter-added along `dstc` into zeros are `segSum`. -/
theorem agg_eq_segSum (hN : 0 < N)
    (D : ScatterDims ⟨2, ![N, C]⟩ ⟨2, ![E, 1]⟩ ⟨2, ![E, C]⟩)
    (hD1 : D.updateWindowDims = [1]) (hD2 : D.insertedWindowDims = [0]) (hD3 : D.scatterDimsToOperandDims = [0])
    (hD4 : D.indexVectorDim = 1)
    (G : GatherDims ⟨2, ![N, C]⟩ ⟨2, ![E, 1]⟩ ⟨2, ![E, C]⟩)
    (hG1 : G.offsetDims = [1]) (hG2 : G.collapsedSliceDims = [0]) (hG3 : G.operandBatchingDims = [])
    (hG4 : G.startIndicesBatchingDims = []) (hG5 : G.startIndexMap = [0]) (hG6 : G.indexVectorDim = 1)
    (hG7 : G.sliceSizes = ![1, C])
    (hz : (⟨0, ![]⟩ : Shape).BroadcastsInDim ⟨2, ![N, C]⟩ ![])
    (H : Mat N C) (dstc srcc : Col E) :
    Host.scatterAdd (F := Ideal) (φ := .f32) D
        (broadcastInDim ⟨2, ![N, C]⟩ ![] hz (constant (F := Ideal) ⟨0, ![]⟩ .f32 0x00000000#32)) dstc (Host.gather G H srcc)
      = segSum hN dstc srcc H := by
  funext i
  obtain ⟨p, q, rfl⟩ : ∃ (p : Fin N) (q : Fin C), i = ix2 p q := ⟨i 0, i 1, eq_ix2 i⟩
  rw [ScatterRows.scatterAdd_rows2_apply_of_dims D hD1 hD2 hD3 hD4, segSum_apply, splat_apply]
  refine congrArg₂ (· + ·) ?_ (Finset.sum_congr rfl fun e _ => ?_)
  · simp only [constant, Ideal.ofBits_def, Ideal.ofBits_zero_f32]
  · rw [Segments.gather_rows_apply_of_dims hN G hG1 hG2 hG3 hG4 hG5 hG6 hG7]
    rfl

/-- The degree column: the count clamped below at one, laid out as a column. -/
theorem degree_apply (hb : (⟨1, ![N]⟩ : Shape).BroadcastsInDim ⟨2, ![N, 1]⟩ ![0])
    (h1 : (⟨0, ![]⟩ : Shape).BroadcastsInDim ⟨1, ![N]⟩ ![]) (v : Row N) (p : Fin N) :
    broadcastInDim ⟨2, ![N, 1]⟩ ![0] hb
        (maximumf v (broadcastInDim ⟨1, ![N]⟩ ![] h1 (constant (F := Ideal) ⟨0, ![]⟩ .f32 0x3F800000#32))) (ix2 p 0)
      = max (v (ix1 p)) 1 := by
  rw [column_apply]
  simp only [maximumf, Ideal.maximumf_def]
  rw [splat_apply]
  simp only [constant, Ideal.ofBits_def, ofBits_one]

/-- The reciprocal column: one over the degree, laid out as a column. -/
theorem recip_apply (hb : (⟨1, ![N]⟩ : Shape).BroadcastsInDim ⟨2, ![N, 1]⟩ ![0])
    (h1 : (⟨0, ![]⟩ : Shape).BroadcastsInDim ⟨1, ![N]⟩ ![]) (w : Row N) (p : Fin N) :
    broadcastInDim ⟨2, ![N, 1]⟩ ![0] hb
        (Host.divf (broadcastInDim ⟨1, ![N]⟩ ![] h1 (constant (F := Ideal) ⟨0, ![]⟩ .f32 0x3F800000#32)) w) (ix2 p 0)
      = Ideal.div 1 (w (ix1 p)) := by
  rw [column_apply]
  simp only [Host.divf, Ideal.hostDivf_def]
  rw [splat_apply]
  simp only [constant, Ideal.ofBits_def, ofBits_one]

/-- A maximum with one is not zero. -/
theorem max_one_ne_zero (x : EReal) : max x 1 ≠ 0 := by
  have h : (0 : EReal) < max x 1 := lt_of_lt_of_le zero_lt_one (le_max_right x 1)
  exact ne_of_gt h

end Cert.Sage.Ops

end
-- ==== Proof.SpecLaws.lean ====
/-
  The laws that join the two spellings of a mean-aggregation layer on the extended reals.

  * Off zero a quotient is the product with the inverse, so `x / D = x · (1 / D)` for every extended real `x` and every
    `D ≠ 0`: a layer whose mean is `AGG · (1 / deg)` is the layer whose mean is `AGG / deg`, with nothing asked of the
    entries (`rowAtK_eq_rowAtR`, `layerK_eq_layerR`).
  * Applying the neighbour weight before or after the aggregation is the same sum taken in another order, and the
    reciprocal degree moves across it: `(Σ_e [dst e = p] Σ_k H[src e, k] · W[k, q]) · ε = Σ_k ((Σ_e [dst e = p] H[src e, k]) · ε) · W[k, q]`.
    On the extended reals this needs every `H[·,·]` and `W[·,·]` to be a REAL (a product distributes over a sum that may hold
    both infinities in no useful way), which is why finiteness is carried through the layers (`fin'_layerK`, `fin'_segSum`).
-/
import proofs.«145628_j19851338842541_2_alg».proof.Proof.Spec
import proofs.«145628_j19851338842541_2_alg».proof.Proof.LibRealSums

noncomputable section

open scoped BigOperators

namespace Cert.Sage

open Idealize.ShloMosaic Idealize.ShloMosaic.ValueIdx Cert.Lib.RealSums

variable {n K d E : Nat}

/-! ## Reals inside the extended reals -/

theorem fin'_mul {x y : EReal} (hx : Fin' x) (hy : Fin' y) : Fin' (x * y) := by
  obtain ⟨a, rfl⟩ := hx.exists_real
  obtain ⟨b, rfl⟩ := hy.exists_real
  rw [← EReal.coe_mul]; exact fin'_coe _

theorem fin'_max {x y : EReal} (hx : Fin' x) (hy : Fin' y) : Fin' (max x y) := by
  rcases max_choice x y with h | h <;> rw [h] <;> assumption

theorem fin'_ite (c : Prop) [Decidable c] {x : EReal} (hx : Fin' x) : Fin' (if c then x else 0) := by
  split_ifs
  · exact hx
  · exact fin'_zero

theorem fin'_usum {ι : Type*} [Fintype ι] (a : ι → EReal) (ha : ∀ c, Fin' (a c)) : Fin' (∑ c, a c) :=
  fin'_sum Finset.univ a ha

/-- Off zero, the quotient is the product with the inverse. -/
theorem div_eq_mul_inv {x D : EReal} (hD : D ≠ 0) : Ideal.div x D = x * D⁻¹ := by
  rw [Ideal.div, if_neg hD]

/-- The reciprocal `1 / D` of a nonzero `D` is its inverse, a real. -/
theorem fin'_recip {D : EReal} (hD : D ≠ 0) : Fin' (Ideal.div 1 D) := by
  rw [div_eq_mul_inv hD, one_mul]; exact fin'_inv D

/-! ## A mean as a product with the reciprocal degree, and as a quotient by the degree -/

/-- Entry by entry the two spellings of a layer agree when the reciprocal column is `1 / DEG`, the degree is nowhere
    zero, and the one-row bias holds the bias vector. -/
theorem rowAtK_eq_rowAtR (X AGG : Mat n K) (INV DEG : Mat n 1) (Ws Wn : Mat K d) (B : Mat 1 d) (b : Row d)
    (hinv : ∀ p, INV (ix2 p 0) = Ideal.div 1 (DEG (ix2 p 0))) (hdeg : ∀ p, DEG (ix2 p 0) ≠ 0)
    (hB : ∀ q, B (ix2 0 q) = b (ix1 q)) (p : Fin n) (q : Fin d) :
    rowAtK X AGG INV Ws Wn B p q = rowAtR X AGG DEG Ws Wn b p q := by
  unfold rowAtK rowAtR
  rw [hB q, hinv p]
  refine congrArg (fun t => _ + t + _) (Finset.sum_congr rfl fun k _ => ?_)
  rw [div_eq_mul_inv (hdeg p), div_eq_mul_inv (hdeg p), one_mul]

theorem layerK_eq_layerR (X AGG : Mat n K) (INV DEG : Mat n 1) (Ws Wn : Mat K d) (B : Mat 1 d) (b : Row d)
    (hinv : ∀ p, INV (ix2 p 0) = Ideal.div 1 (DEG (ix2 p 0))) (hdeg : ∀ p, DEG (ix2 p 0) ≠ 0)
    (hB : ∀ q, B (ix2 0 q) = b (ix1 q)) :
    layerK X AGG INV Ws Wn B = layerR X AGG DEG Ws Wn b := by
  funext i
  obtain ⟨p, q, rfl⟩ : ∃ (p : Fin n) (q : Fin d), i = ix2 p q := ⟨i 0, i 1, eq_ix2 i⟩
  rw [layerK_apply, layerR_apply, rowAtK_eq_rowAtR X AGG INV DEG Ws Wn B b hinv hdeg hB]

/-! ## Finiteness through a layer -/

theorem fin'_segSum (hn : 0 < n) (dstc srcc : Col E) (H : Mat n d) (hH : ∀ i, Fin' (H i)) (i) :
    Fin' (segSum hn dstc srcc H i) := by
  obtain ⟨p, q, rfl⟩ : ∃ (p : Fin n) (q : Fin d), i = ix2 p q := ⟨i 0, i 1, eq_ix2 i⟩
  rw [segSum_apply]
  exact fin'_add fin'_zero (fin'_usum _ fun e => fin'_ite _ (hH _))

theorem fin'_rowAtK (X AGG : Mat n K) (INV : Mat n 1) (Ws Wn : Mat K d) (B : Mat 1 d)
    (hX : ∀ i, Fin' (X i)) (hA : ∀ i, Fin' (AGG i)) (hI : ∀ i, Fin' (INV i)) (hWs : ∀ i, Fin' (Ws i)) (hWn : ∀ i, Fin' (Wn i))
    (hB : ∀ i, Fin' (B i)) (p : Fin n) (q : Fin d) : Fin' (rowAtK X AGG INV Ws Wn B p q) := by
  unfold rowAtK
  exact fin'_add (fin'_add (fin'_usum _ fun k => fin'_mul (hX _) (hWs _))
    (fin'_usum _ fun k => fin'_mul (fin'_mul (hA _) (hI _)) (hWn _))) (hB _)

theorem fin'_layerK (X AGG : Mat n K) (INV : Mat n 1) (Ws Wn : Mat K d) (B : Mat 1 d)
    (hX : ∀ i, Fin' (X i)) (hA : ∀ i, Fin' (AGG i)) (hI : ∀ i, Fin' (INV i)) (hWs : ∀ i, Fin' (Ws i)) (hWn : ∀ i, Fin' (Wn i))
    (hB : ∀ i, Fin' (B i)) (i) : Fin' (layerK X AGG INV Ws Wn B i) := by
  obtain ⟨p, q, rfl⟩ : ∃ (p : Fin n) (q : Fin d), i = ix2 p q := ⟨i 0, i 1, eq_ix2 i⟩
  rw [layerK_apply]
  exact fin'_max (fin'_rowAtK X AGG INV Ws Wn B hX hA hI hWs hWn hB _ _) fin'_zero

/-! ## The neighbour weight before or after the aggregation -/

theorem coe_ite (c : Prop) [Decidable c] (r : ℝ) : ((if c then r else 0 : ℝ) : EReal) = if c then (r : EReal) else 0 := by
  split_ifs <;> simp

/-- The same double sum in two orders, over the reals. -/
theorem swap_real {ιE ιK : Type*} [Fintype ιE] [Fintype ιK] (c : ιE → Prop) [DecidablePred c]
    (a : ιE → ιK → ℝ) (w : ιK → ℝ) (ε : ℝ) :
    (∑ e, if c e then ∑ k, a e k * w k else 0) * ε = ∑ k, ((∑ e, if c e then a e k else 0) * ε) * w k := by
  rw [Finset.sum_mul]
  have hL : ∀ e, (if c e then ∑ k, a e k * w k else 0) * ε = ∑ k, (if c e then a e k else 0) * ε * w k := by
    intro e
    split_ifs
    · rw [Finset.sum_mul]; exact Finset.sum_congr rfl fun k _ => by ring
    · simp
  rw [Finset.sum_congr rfl fun e _ => hL e, Finset.sum_comm]
  refine Finset.sum_congr rfl fun k _ => ?_
  rw [Finset.sum_mul, Finset.sum_mul]

/-- The same on the extended reals, for real entries: the aggregated projected rows scaled by a real factor are the
    projection of the aggregated rows scaled by it. -/
theorem swap_ereal {ιE ιK : Type*} [Fintype ιE] [Fintype ιK] (c : ιE → Prop) [DecidablePred c]
    (a : ιE → ιK → ℝ) (w : ιK → ℝ) (ε : ℝ) :
    ((0 : EReal) + ∑ e, if c e then ∑ k, (a e k : EReal) * (w k : EReal) else 0) * (ε : EReal)
      = ∑ k, (((0 : EReal) + ∑ e, if c e then (a e k : EReal) else 0) * (ε : EReal)) * (w k : EReal) := by
  have hL : ((0 : EReal) + ∑ e, if c e then ∑ k, (a e k : EReal) * (w k : EReal) else 0) * (ε : EReal)
      = (((∑ e, if c e then ∑ k, a e k * w k else 0) * ε : ℝ) : EReal) := by
    rw [zero_add, EReal.coe_mul, coe_sum]
    refine congrArg (· * (ε : EReal)) (Finset.sum_congr rfl fun e _ => ?_)
    rw [coe_ite, coe_sum]
    refine if_congr Iff.rfl (Finset.sum_congr rfl fun k _ => ?_) rfl
    rw [EReal.coe_mul]
  have hR : (∑ k, (((0 : EReal) + ∑ e, if c e then (a e k : EReal) else 0) * (ε : EReal)) * (w k : EReal))
      = ((∑ k, ((∑ e, if c e then a e k else 0) * ε) * w k : ℝ) : EReal) := by
    rw [coe_sum]
    refine Finset.sum_congr rfl fun k _ => ?_
    rw [zero_add, EReal.coe_mul, EReal.coe_mul, coe_sum]
    refine congrArg (fun t => t * (ε : EReal) * (w k : EReal)) (Finset.sum_congr rfl fun e _ => ?_)
    rw [coe_ite]
  rw [hL, hR, swap_real]

/-- THE LAST LAYER. For a real node array `H` and a real neighbour weight `Wn`, a degree nowhere zero with its
    reciprocal column, and the one-row bias holding the bias vector: projecting the rows, summing them over the incoming edges
    and scaling by the reciprocal degree is the mean of the incoming rows multiplied by the weight. -/
theorem outK_eq_outR (hn : 0 < n) (dstc srcc : Col E) (H : Mat n K) (INV DEG : Mat n 1) (Ws Wn : Mat K d) (B : Mat 1 d) (b : Row d)
    (hH : ∀ i, Fin' (H i)) (hWn : ∀ i, Fin' (Wn i))
    (hinv : ∀ p, INV (ix2 p 0) = Ideal.div 1 (DEG (ix2 p 0))) (hdeg : ∀ p, DEG (ix2 p 0) ≠ 0)
    (hB : ∀ q, B (ix2 0 q) = b (ix1 q)) :
    outK H (segSum hn dstc srcc (projK H Wn)) INV Ws B = outR H (segSum hn dstc srcc H) DEG Ws Wn b := by
  choose h' hh' using fun i => (hH i).exists_real
  choose w' hw' using fun i => (hWn i).exists_real
  funext i
  obtain ⟨p, q, rfl⟩ : ∃ (p : Fin n) (q : Fin d), i = ix2 p q := ⟨i 0, i 1, eq_ix2 i⟩
  rw [outK_apply, outR_apply]
  unfold outAtK rowAtR
  rw [hB q, hinv p]
  obtain ⟨ε, hε⟩ := (fin'_inv (DEG (ix2 p 0))).exists_real
  refine congrArg (fun t => _ + t + _) ?_
  rw [div_eq_mul_inv (hdeg p), one_mul, hε]
  have hR : ∀ k : Fin K, Ideal.div (segSum hn dstc srcc H (ix2 p k)) (DEG (ix2 p 0)) * Wn (ix2 k q)
      = (((0 : EReal) + ∑ e : Fin E, if (dstc (ix2 e (0 : Fin 1))).toInt = ((p.val : ℕ) : ℤ) then ((h' (ix2 (rowOf hn srcc e) k) : ℝ) : EReal) else 0) * (ε : EReal))
          * ((w' (ix2 k q) : ℝ) : EReal) := by
    intro k
    rw [div_eq_mul_inv (hdeg p), hε, segSum_apply, hw']
    refine congrArg (fun t => ((0 : EReal) + t) * (ε : EReal) * _) (Finset.sum_congr rfl fun e _ => ?_)
    rw [hh']
  rw [Finset.sum_congr rfl fun k _ => hR k, ← swap_ereal]
  rw [segSum_apply]
  refine congrArg (fun t => ((0 : EReal) + t) * (ε : EReal)) (Finset.sum_congr rfl fun e _ => ?_)
  refine if_congr Iff.rfl ?_ rfl
  rw [projK_apply]
  exact Finset.sum_congr rfl fun k _ => by rw [hh', hw']

/-! ## The three layers -/

/-- The reciprocal column of a degree nowhere zero holds reals. -/
theorem fin'_recipCol (INV DEG : Mat n 1) (hinv : ∀ p, INV (ix2 p 0) = Ideal.div 1 (DEG (ix2 p 0)))
    (hdeg : ∀ p, DEG (ix2 p 0) ≠ 0) (i) : Fin' (INV i) := by
  obtain ⟨p, u, rfl⟩ : ∃ (p : Fin n) (u : Fin 1), i = ix2 p u := ⟨i 0, i 1, eq_ix2 i⟩
  obtain rfl : u = 0 := Subsingleton.elim _ _
  rw [hinv p]; exact fin'_recip (hdeg p)

/-- THE NETWORK. Two layers with the rectifier and a last layer without, on real inputs: taking every mean as a product with the
    reciprocal degree and applying the last neighbour weight before the aggregation gives the same array as taking every mean as
    a quotient by the degree and applying the weight after it. -/
theorem network_eq (hn : 0 < n) (dstc srcc : Col E) (x : Mat n K) (INV DEG : Mat n 1)
    (Ws0 Wn0 Ws1 Wn1 : Mat K K) (B0 B1 : Mat 1 K) (b0 b1 : Row K) (Ws2 Wn2 : Mat K d) (B2 : Mat 1 d) (b2 : Row d)
    (hx : ∀ i, Fin' (x i)) (hWs0 : ∀ i, Fin' (Ws0 i)) (hWn0 : ∀ i, Fin' (Wn0 i)) (hB0f : ∀ i, Fin' (B0 i))
    (hWs1 : ∀ i, Fin' (Ws1 i)) (hWn1 : ∀ i, Fin' (Wn1 i)) (hB1f : ∀ i, Fin' (B1 i)) (hWn2 : ∀ i, Fin' (Wn2 i))
    (hinv : ∀ p, INV (ix2 p 0) = Ideal.div 1 (DEG (ix2 p 0))) (hdeg : ∀ p, DEG (ix2 p 0) ≠ 0)
    (hB0 : ∀ q, B0 (ix2 0 q) = b0 (ix1 q)) (hB1 : ∀ q, B1 (ix2 0 q) = b1 (ix1 q)) (hB2 : ∀ q, B2 (ix2 0 q) = b2 (ix1 q)) :
    outK (layerK (layerK x (segSum hn dstc srcc x) INV Ws0 Wn0 B0)
          (segSum hn dstc srcc (layerK x (segSum hn dstc srcc x) INV Ws0 Wn0 B0)) INV Ws1 Wn1 B1)
        (segSum hn dstc srcc (projK (layerK (layerK x (segSum hn dstc srcc x) INV Ws0 Wn0 B0)
          (segSum hn dstc srcc (layerK x (segSum hn dstc srcc x) INV Ws0 Wn0 B0)) INV Ws1 Wn1 B1) Wn2)) INV Ws2 B2
      = outR (layerR (layerR x (segSum hn dstc srcc x) DEG Ws0 Wn0 b0)
          (segSum hn dstc srcc (layerR x (segSum hn dstc srcc x) DEG Ws0 Wn0 b0)) DEG Ws1 Wn1 b1)
        (segSum hn dstc srcc (layerR (layerR x (segSum hn dstc srcc x) DEG Ws0 Wn0 b0)
          (segSum hn dstc srcc (layerR x (segSum hn dstc srcc x) DEG Ws0 Wn0 b0)) DEG Ws1 Wn1 b1)) DEG Ws2 Wn2 b2 := by
  have hI := fin'_recipCol INV DEG hinv hdeg
  rw [← layerK_eq_layerR x (segSum hn dstc srcc x) INV DEG Ws0 Wn0 B0 b0 hinv hdeg hB0]
  have h1 : ∀ i, Fin' (layerK x (segSum hn dstc srcc x) INV Ws0 Wn0 B0 i) :=
    fin'_layerK x _ INV Ws0 Wn0 B0 hx (fin'_segSum hn dstc srcc x hx) hI hWs0 hWn0 hB0f
  generalize layerK x (segSum hn dstc srcc x) INV Ws0 Wn0 B0 = H1 at h1 ⊢
  rw [← layerK_eq_layerR H1 (segSum hn dstc srcc H1) INV DEG Ws1 Wn1 B1 b1 hinv hdeg hB1]
  have h2 : ∀ i, Fin' (layerK H1 (segSum hn dstc srcc H1) INV Ws1 Wn1 B1 i) :=
    fin'_layerK H1 _ INV Ws1 Wn1 B1 h1 (fin'_segSum hn dstc srcc H1 h1) hI hWs1 hWn1 hB1f
  generalize layerK H1 (segSum hn dstc srcc H1) INV Ws1 Wn1 B1 = H2 at h2 ⊢
  exact outK_eq_outR hn dstc srcc H2 INV DEG Ws2 Wn2 B2 b2 h2 hWn2 hinv hdeg hB2

end Cert.Sage

end
-- ==== Proof.BridgeK.lean ====
/-
  The kernel program's host operations (the edge columns, the neighbour sums of both widths, the degree and its reciprocal,
  the weights' change of format and the bias rows) identified with the specification's functions.
-/
import proofs.«145628_j19851338842541_2_alg».proof.Proof.Gen.KernelIdeal
import proofs.«145628_j19851338842541_2_alg».proof.Proof.Ops
import proofs.«145628_j19851338842541_2_alg».proof.Proof.SpecLaws

noncomputable section

open scoped BigOperators

namespace Cert.Sage.BridgeK

open Idealize.ShloMosaic Idealize.ShloMosaic.ValueIdx Cert.Sage Cert.KernelIdeal Cert.KernelIdeal.Facts₀ Cert.KernelIdeal.Facts

/-- The destination words as a column. -/
def dstCol (dst : IVec S800000 32) : Col 800000 := broadcastInDim S800000x1 ![0] bcast_S800000_S800000x1_0 dst

/-- The source words, a negative one wrapped around by the number of rows, as a column. -/
def srcCol (src : IVec S800000 32) : Col 800000 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The number of edges into each node, from zero. -/
def count (dst : IVec S800000 32) : Row 50000 :=
  Host.scatterAdd (F := Ideal) (φ := .f32) scatter_S50000_S800000x1_S800000_n_0_0_1
    (broadcastInDim S50000 ![] bcast_S_S50000 (constant (F := Ideal) S_ .f32 0x00000000#32)) (dstCol dst)
    (broadcastInDim S800000 ![] bcast_S_S800000 (constant (F := Ideal) S_ .f32 0x3F800000#32))

/-- The degree column: the count clamped below at one. -/
def degCol (dst : IVec S800000 32) : Mat 50000 1 :=
  broadcastInDim S50000x1 ![0] bcast_S50000_S50000x1_0
    (maximumf (count dst) (broadcastInDim S50000 ![] bcast_S_S50000 (constant (F := Ideal) S_ .f32 0x3F800000#32)))

/-- The reciprocal-degree column. -/
def invCol (dst : IVec S800000 32) : Mat 50000 1 :=
  broadcastInDim S50000x1 ![0] bcast_S50000_S50000x1_0
    (Host.divf (broadcastInDim S50000 ![] bcast_S_S50000 (constant (F := Ideal) S_ .f32 0x3F800000#32))
      (maximumf (count dst) (broadcastInDim S50000 ![] bcast_S_S50000 (constant (F := Ideal) S_ .f32 0x3F800000#32))))

theorem degCol_ne_zero (dst : IVec S800000 32) (p : Fin 50000) : degCol dst (ix2 p 0) ≠ 0 := by
  unfold degCol
  rw [Ops.degree_apply]
  exact Ops.max_one_ne_zero _

theorem invCol_eq (dst : IVec S800000 32) (p : Fin 50000) : invCol dst (ix2 p 0) = Ideal.div 1 (degCol dst (ix2 p 0)) := by
  unfold invCol degCol
  rw [Ops.recip_apply, Ops.column_apply]

/-- The neighbour sum of 128-wide rows, the rows passing through the narrower float format on the way. -/
theorem agg128_eq (h : Mat 50000 128) (src dst : IVec S800000 32) :
    Host.scatterAdd (F := Ideal) (φ := .f32) scatter_S50000x128_S800000x1_S800000x128_1_0_0_1
        (broadcastInDim S50000x128 ![] bcast_S_S50000x128 (constant (F := Ideal) S_ .f32 0x00000000#32)) (dstCol dst)
        (extf .f32 (Host.gather gather_S50000x128_S800000x1_S800000x128_1_0_n_n_0_1_1128 (truncf .bf16 (h : FVec Ideal S50000x128 .f32) bitsLt_bf16_f32) (srcCol src)) bitsLt_bf16_f32)
      = segSum (by decide) (dstCol dst) (srcCol src) h :=
  Ops.agg_eq_segSum (N := 50000) (E := 800000) (C := 128) (by decide) _ rfl rfl rfl rfl _ rfl rfl rfl rfl rfl rfl rfl _ h (dstCol dst) (srcCol src)

/-- The neighbour sum of 64-wide rows. -/
theorem agg64_eq (h : Mat 50000 64) (src dst : IVec S800000 32) :
    Host.scatterAdd (F := Ideal) (φ := .f32) scatter_S50000x64_S800000x1_S800000x64_1_0_0_1
        (broadcastInDim S50000x64 ![] bcast_S_S50000x64 (constant (F := Ideal) S_ .f32 0x00000000#32)) (dstCol dst)
        (extf .f32 (Host.gather gather_S50000x64_S800000x1_S800000x64_1_0_n_n_0_1_164 (truncf .bf16 (h : FVec Ideal S50000x64 .f32) bitsLt_bf16_f32) (srcCol src)) bitsLt_bf16_f32)
      = segSum (by decide) (dstCol dst) (srcCol src) h :=
  Ops.agg_eq_segSum (N := 50000) (E := 800000) (C := 64) (by decide) _ rfl rfl rfl rfl _ rfl rfl rfl rfl rfl rfl rfl _ h (dstCol dst) (srcCol src)

end Cert.Sage.BridgeK

end
-- ==== Proof.Glue.lean ====
/-
  The kernel program's whole-array host terms, as the walk through the program names them, are the specification's
  functions: the neighbour sums are `segSum` over the two edge columns, the reciprocal column is one over the degree column, a
  change of float format changes nothing, and a bias laid out as one row reads the bias.
-/
import proofs.«145628_j19851338842541_2_alg».proof.Proof.KChain0
import proofs.«145628_j19851338842541_2_alg».proof.Proof.BridgeK

noncomputable section

namespace Cert.Sage.Glue

open Idealize.ShloMosaic Idealize.ShloMosaic.ValueIdx Cert.Sage Cert.KernelIdeal Cert.KernelIdeal.Facts₀ Cert.KernelIdeal.Facts

theorem aggK_eq (h : Mat 50000 128) (src dst : IVec S800000 32) :
    KChain.aggK h src dst = segSum (by decide) (BridgeK.dstCol dst) (BridgeK.srcCol src) h :=
  BridgeK.agg128_eq h src dst

theorem aggK64_eq (h : Mat 50000 64) (src dst : IVec S800000 32) :
    KChain.aggK64 h src dst = segSum (by decide) (BridgeK.dstCol dst) (BridgeK.srcCol src) h :=
  BridgeK.agg64_eq h src dst

theorem invK_eq (dst : IVec S800000 32) : KChain.invK dst = BridgeK.invCol dst := rfl

theorem cvt_eq {a b : Nat} (W : Mat a b) : (KChain.cvt (s := ⟨2, ![a, b]⟩) W : Mat a b) = W := rfl

theorem rowK128_apply (b : Row 128) (q : Fin 128) : KChain.rowK128 b (ix2 0 q) = b (ix1 q) :=
  shapeCast_a_1a_apply b _ 0 q

theorem rowK64_apply (b : Row 64) (q : Fin 64) : KChain.rowK64 b (ix2 0 q) = b (ix1 q) :=
  shapeCast_a_1a_apply b _ 0 q

end Cert.Sage.Glue

end
-- ==== Proof.RefValue.lean ====
/-
  What the reference computes, as a function of its twelve argument arrays, on the extended reals.

  The reference applies three mean-aggregation graph-convolution layers.  Each layer reads the same two
  whole-array quantities of the edge list: the neighbour sum of its input rows (a scatter-add, over the
  destination column, of the rows gathered at the source column — `aggR`), and the in-degree column clamped
  below at one (a scatter-add of ones over the destination column, then a maximum with one — `degR`).  These two
  are kept as whole-array terms and are not read at an index here.  The rest of a layer is dense and is read
  entry by entry: entry `(p, q)` is

      Σ_k H[p, k] · Ws[k, q]  +  Σ_k (AGG[p, k] / DEG[p, 0]) · Wn[k, q]  +  b[q],

  followed, in the first two layers, by the maximum with zero.  That is `Cert.Sage.rowAtR`, and so a layer's
  stage is `Cert.Sage.layerR` (or, for the last layer, `Cert.Sage.outR`) of the previous stage.
-/
import proofs.«145628_j19851338842541_2_alg».proof.Proof.Gen.ReferenceIdeal.Read
import proofs.«145628_j19851338842541_2_alg».proof.Proof.Spec

noncomputable section

open scoped BigOperators

namespace Cert.Sage.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The two whole-array quantities of the edge list -/

/-- The neighbour sum of the rows of `h`: from the zero array, the scatter-add over the destination column of the
    rows of `h` gathered at the source column (a negative source word first moved up by the number of rows). -/
def aggR (h : Vec Ideal S50000x128 .f32) (src dst : Vec Ideal S800000 .i32) : Vec Ideal S50000x128 .f32 :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The in-degree as a column, clamped below at one: from the zero vector, the scatter-add of ones over the
    destination column, then the maximum with one. -/
def degR (dst : Vec Ideal S800000 .i32) : Vec Ideal S50000x1 .f32 :=
  broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32))) (broadcastInDim S50000 ![] bcast_S_S50000 (constant (F := Ideal) S_ .f32 0x3F800000#32)))

/-- The degree column's stage is `degR` of the destination column: the same operations in the same order. -/
theorem deg_stage (dst : Vec Ideal S800000 .i32) : val_main_v6 (F := Ideal) dst = degR dst := rfl

/-- The first layer's neighbour-sum stage is `aggR` of the input rows. -/
theorem agg_stage1 (x : Vec Ideal S50000x128 .f32) (src dst : Vec Ideal S800000 .i32) :
    val_main_v16 (F := Ideal) x src dst = aggR x src dst := rfl

/-! ## The first layer -/

/- The dense operations read their operands at these indices: a product's entry `(p, q)` reads row `p` of the left
   factor and column `q` of the right one along `k`; the degree column is read at `(p, 0)` whatever the column; the
   bias at `q` whatever the row. -/
theorem lidx19 (p : Fin 50000) (q k : Fin 128) : lidx_main_v19 (ix2 p q) k = ix2 p k :=
  funext fun a => Fin.ext (by match a with | ⟨0, _⟩ => rfl | ⟨1, _⟩ => rfl)
theorem ridx19 (p : Fin 50000) (q k : Fin 128) : ridx_main_v19 (ix2 p q) k = ix2 k q :=
  funext fun a => Fin.ext (by match a with | ⟨0, _⟩ => rfl | ⟨1, _⟩ => rfl)
theorem lidx20 (p : Fin 50000) (q k : Fin 128) : lidx_main_v20 (ix2 p q) k = ix2 p k :=
  funext fun a => Fin.ext (by match a with | ⟨0, _⟩ => rfl | ⟨1, _⟩ => rfl)
theorem ridx20 (p : Fin 50000) (q k : Fin 128) : ridx_main_v20 (ix2 p q) k = ix2 k q :=
  funext fun a => Fin.ext (by match a with | ⟨0, _⟩ => rfl | ⟨1, _⟩ => rfl)
theorem idx17 (p : Fin 50000) (k : Fin 128) : idx_main_v17 (ix2 p k) = ix2 p (0 : Fin 1) :=
  funext fun a => Fin.ext (by match a with | ⟨0, _⟩ => rfl | ⟨1, _⟩ => rfl)
theorem idx23 (p : Fin 50000) (q : Fin 128) : idx_main_v22 (idx_main_v23 (ix2 p q)) = ix1 q :=
  funext fun a => Fin.ext (by match a with | ⟨0, _⟩ => rfl)

/-- The first layer's stage: entry `(p, q)` is the two products' sums plus the bias, clamped below at zero. -/
theorem layer1 (x : Vec Ideal S50000x128 .f32) (src dst : Vec Ideal S800000 .i32) (Ws0 Wn0 : Vec Ideal S128x128 .f32)
    (b0 : Vec Ideal S128 .f32) :
    val_main_v25 (F := Ideal) x src dst Ws0 Wn0 b0
      = layerR (n := 50000) (K := 128) (d := 128) x (aggR x src dst) (degR dst) Ws0 Wn0 b0 := by
  funext i
  obtain ⟨p, q, rfl⟩ : ∃ (p : Fin 50000) (q : Fin 128), i = ix2 p q := ⟨i 0, i 1, eq_ix2 i⟩
  rw [layerR_apply]
  rw [val_main_v25_apply, val_main_v24_apply, val_main_v21_apply]
  rw [val_main_v19_apply, val_main_v20_apply]
  rw [val_main_v23_apply, val_main_v22_apply, val_main_call0_v0_apply, val_main_call0_cst_apply]
  have e19 : ∀ k : Fin 128, x (lidx_main_v19 (ix2 p q) k) * Ws0 (ridx_main_v19 (ix2 p q) k) = x (ix2 p k) * Ws0 (ix2 k q) :=
    fun k => by rw [lidx19, ridx19]
  have e20 : ∀ k : Fin 128, val_main_v18 (F := Ideal) x src dst (lidx_main_v20 (ix2 p q) k) * Wn0 (ridx_main_v20 (ix2 p q) k)
      = Ideal.div (aggR x src dst (ix2 p k)) (degR dst (ix2 p 0)) * Wn0 (ix2 k q) :=
    fun k => by rw [lidx20, ridx20, val_main_v18_apply, val_main_v17_apply, idx17, Ideal.hostDivf_def]; rfl
  rw [Finset.sum_congr rfl (fun k _ => e19 k), Finset.sum_congr rfl (fun k _ => e20 k), idx23,
    Ideal.ofBits_def, Ideal.ofBits_zero_f32]
  rfl

/-! ## The second layer -/

theorem lidx38 (p : Fin 50000) (q k : Fin 128) : lidx_main_v38 (ix2 p q) k = ix2 p k :=
  funext fun a => Fin.ext (by match a with | ⟨0, _⟩ => rfl | ⟨1, _⟩ => rfl)
theorem ridx38 (p : Fin 50000) (q k : Fin 128) : ridx_main_v38 (ix2 p q) k = ix2 k q :=
  funext fun a => Fin.ext (by match a with | ⟨0, _⟩ => rfl | ⟨1, _⟩ => rfl)
theorem lidx39 (p : Fin 50000) (q k : Fin 128) : lidx_main_v39 (ix2 p q) k = ix2 p k :=
  funext fun a => Fin.ext (by match a with | ⟨0, _⟩ => rfl | ⟨1, _⟩ => rfl)
theorem ridx39 (p : Fin 50000) (q k : Fin 128) : ridx_main_v39 (ix2 p q) k = ix2 k q :=
  funext fun a => Fin.ext (by match a with | ⟨0, _⟩ => rfl | ⟨1, _⟩ => rfl)
theorem idx36 (p : Fin 50000) (k : Fin 128) : idx_main_v36 (ix2 p k) = ix2 p (0 : Fin 1) :=
  funext fun a => Fin.ext (by match a with | ⟨0, _⟩ => rfl | ⟨1, _⟩ => rfl)
theorem idx42 (p : Fin 50000) (q : Fin 128) : idx_main_v41 (idx_main_v42 (ix2 p q)) = ix1 q :=
  funext fun a => Fin.ext (by match a with | ⟨0, _⟩ => rfl)

/-- The second layer's neighbour-sum stage is `aggR` of the first layer's stage. -/
theorem agg_stage2 (x : Vec Ideal S50000x128 .f32) (src dst : Vec Ideal S800000 .i32) (Ws0 Wn0 : Vec Ideal S128x128 .f32)
    (b0 : Vec Ideal S128 .f32) :
    val_main_v35 (F := Ideal) x src dst Ws0 Wn0 b0 = aggR (val_main_v25 (F := Ideal) x src dst Ws0 Wn0 b0) src dst := rfl

/-- The second layer's stage is the layer function of the first layer's stage. -/
theorem layer2 (x : Vec Ideal S50000x128 .f32) (src dst : Vec Ideal S800000 .i32) (Ws0 Wn0 : Vec Ideal S128x128 .f32)
    (b0 : Vec Ideal S128 .f32) (Ws1 Wn1 : Vec Ideal S128x128 .f32) (b1 : Vec Ideal S128 .f32) :
    val_main_v44 (F := Ideal) x src dst Ws0 Wn0 b0 Ws1 Wn1 b1
      = layerR (n := 50000) (K := 128) (d := 128) (val_main_v25 (F := Ideal) x src dst Ws0 Wn0 b0)
          (aggR (val_main_v25 (F := Ideal) x src dst Ws0 Wn0 b0) src dst) (degR dst) Ws1 Wn1 b1 := by
  funext i
  obtain ⟨p, q, rfl⟩ : ∃ (p : Fin 50000) (q : Fin 128), i = ix2 p q := ⟨i 0, i 1, eq_ix2 i⟩
  rw [layerR_apply]
  rw [val_main_v44_apply, val_main_v43_apply, val_main_v40_apply]
  rw [val_main_v38_apply, val_main_v39_apply]
  rw [val_main_v42_apply, val_main_v41_apply, val_main_call1_v0_apply, val_main_call1_cst_apply]
  have e38 : ∀ k : Fin 128, val_main_v25 (F := Ideal) x src dst Ws0 Wn0 b0 (lidx_main_v38 (ix2 p q) k) * Ws1 (ridx_main_v38 (ix2 p q) k)
      = val_main_v25 (F := Ideal) x src dst Ws0 Wn0 b0 (ix2 p k) * Ws1 (ix2 k q) :=
    fun k => by rw [lidx38, ridx38]
  have e39 : ∀ k : Fin 128, val_main_v37 (F := Ideal) x src dst Ws0 Wn0 b0 (lidx_main_v39 (ix2 p q) k) * Wn1 (ridx_main_v39 (ix2 p q) k)
      = Ideal.div (aggR (val_main_v25 (F := Ideal) x src dst Ws0 Wn0 b0) src dst (ix2 p k)) (degR dst (ix2 p 0)) * Wn1 (ix2 k q) :=
    fun k => by rw [lidx39, ridx39, val_main_v37_apply, val_main_v36_apply, idx36, Ideal.hostDivf_def]; rfl
  rw [Finset.sum_congr rfl (fun k _ => e38 k), Finset.sum_congr rfl (fun k _ => e39 k), idx42,
    Ideal.ofBits_def, Ideal.ofBits_zero_f32]
  rfl

/-! ## The last layer -/

theorem lidx57 (p : Fin 50000) (q : Fin 64) (k : Fin 128) : lidx_main_v57 (ix2 p q) k = ix2 p k :=
  funext fun a => Fin.ext (by match a with | ⟨0, _⟩ => rfl | ⟨1, _⟩ => rfl)
theorem ridx57 (p : Fin 50000) (q : Fin 64) (k : Fin 128) : ridx_main_v57 (ix2 p q) k = ix2 k q :=
  funext fun a => Fin.ext (by match a with | ⟨0, _⟩ => rfl | ⟨1, _⟩ => rfl)
theorem lidx58 (p : Fin 50000) (q : Fin 64) (k : Fin 128) : lidx_main_v58 (ix2 p q) k = ix2 p k :=
  funext fun a => Fin.ext (by match a with | ⟨0, _⟩ => rfl | ⟨1, _⟩ => rfl)
theorem ridx58 (p : Fin 50000) (q : Fin 64) (k : Fin 128) : ridx_main_v58 (ix2 p q) k = ix2 k q :=
  funext fun a => Fin.ext (by match a with | ⟨0, _⟩ => rfl | ⟨1, _⟩ => rfl)
theorem idx55 (p : Fin 50000) (k : Fin 128) : idx_main_v55 (ix2 p k) = ix2 p (0 : Fin 1) :=
  funext fun a => Fin.ext (by match a with | ⟨0, _⟩ => rfl | ⟨1, _⟩ => rfl)
theorem idx61 (p : Fin 50000) (q : Fin 64) : idx_main_v60 (idx_main_v61 (ix2 p q)) = ix1 q :=
  funext fun a => Fin.ext (by match a with | ⟨0, _⟩ => rfl)

/-- The last layer's neighbour-sum stage is `aggR` of the second layer's stage. -/
theorem agg_stage3 (x : Vec Ideal S50000x128 .f32) (src dst : Vec Ideal S800000 .i32) (Ws0 Wn0 : Vec Ideal S128x128 .f32)
    (b0 : Vec Ideal S128 .f32) (Ws1 Wn1 : Vec Ideal S128x128 .f32) (b1 : Vec Ideal S128 .f32) :
    val_main_v54 (F := Ideal) x src dst Ws0 Wn0 b0 Ws1 Wn1 b1
      = aggR (val_main_v44 (F := Ideal) x src dst Ws0 Wn0 b0 Ws1 Wn1 b1) src dst := rfl

/-- The last layer's stage is the output function (no clamp) of the second layer's stage. -/
theorem layer3 (x : Vec Ideal S50000x128 .f32) (src dst : Vec Ideal S800000 .i32) (Ws0 Wn0 : Vec Ideal S128x128 .f32)
    (b0 : Vec Ideal S128 .f32) (Ws1 Wn1 : Vec Ideal S128x128 .f32) (b1 : Vec Ideal S128 .f32)
    (Ws2 Wn2 : Vec Ideal S128x64 .f32) (b2 : Vec Ideal S64 .f32) :
    val_main_v62 (F := Ideal) x src dst Ws0 Wn0 b0 Ws1 Wn1 b1 Ws2 Wn2 b2
      = outR (n := 50000) (K := 128) (d := 64) (val_main_v44 (F := Ideal) x src dst Ws0 Wn0 b0 Ws1 Wn1 b1)
          (aggR (val_main_v44 (F := Ideal) x src dst Ws0 Wn0 b0 Ws1 Wn1 b1) src dst) (degR dst) Ws2 Wn2 b2 := by
  funext i
  obtain ⟨p, q, rfl⟩ : ∃ (p : Fin 50000) (q : Fin 64), i = ix2 p q := ⟨i 0, i 1, eq_ix2 i⟩
  rw [outR_apply]
  rw [val_main_v62_apply, val_main_v59_apply]
  rw [val_main_v57_apply, val_main_v58_apply]
  rw [val_main_v61_apply, val_main_v60_apply]
  have e57 : ∀ k : Fin 128, val_main_v44 (F := Ideal) x src dst Ws0 Wn0 b0 Ws1 Wn1 b1 (lidx_main_v57 (ix2 p q) k) * Ws2 (ridx_main_v57 (ix2 p q) k)
      = val_main_v44 (F := Ideal) x src dst Ws0 Wn0 b0 Ws1 Wn1 b1 (ix2 p k) * Ws2 (ix2 k q) :=
    fun k => by rw [lidx57, ridx57]
  have e58 : ∀ k : Fin 128, val_main_v56 (F := Ideal) x src dst Ws0 Wn0 b0 Ws1 Wn1 b1 (lidx_main_v58 (ix2 p q) k) * Wn2 (ridx_main_v58 (ix2 p q) k)
      = Ideal.div (aggR (val_main_v44 (F := Ideal) x src dst Ws0 Wn0 b0 Ws1 Wn1 b1) src dst (ix2 p k)) (degR dst (ix2 p 0)) * Wn2 (ix2 k q) :=
    fun k => by rw [lidx58, ridx58, val_main_v56_apply, val_main_v55_apply, idx55, Ideal.hostDivf_def]; rfl
  rw [Finset.sum_congr rfl (fun k _ => e57 k), Finset.sum_congr rfl (fun k _ => e58 k), idx61]
  rfl

/-! ## The three layers composed -/

/-- The first layer's output as a function of the arguments. -/
abbrev hid1 (x : Vec Ideal S50000x128 .f32) (src dst : Vec Ideal S800000 .i32) (Ws0 Wn0 : Vec Ideal S128x128 .f32)
    (b0 : Vec Ideal S128 .f32) : Mat 50000 128 :=
  layerR (n := 50000) (K := 128) (d := 128) x (aggR x src dst) (degR dst) Ws0 Wn0 b0

/-- The second layer's output as a function of the arguments. -/
abbrev hid2 (x : Vec Ideal S50000x128 .f32) (src dst : Vec Ideal S800000 .i32) (Ws0 Wn0 : Vec Ideal S128x128 .f32)
    (b0 : Vec Ideal S128 .f32) (Ws1 Wn1 : Vec Ideal S128x128 .f32) (b1 : Vec Ideal S128 .f32) : Mat 50000 128 :=
  layerR (n := 50000) (K := 128) (d := 128) (hid1 x src dst Ws0 Wn0 b0) (aggR (hid1 x src dst Ws0 Wn0 b0) src dst) (degR dst)
    Ws1 Wn1 b1

/-- The reference's last stage, as a function of the twelve argument arrays, is the output layer of the second
    hidden layer of the first: each layer's neighbour sum and the one degree column are the whole-array terms
    `aggR` and `degR`, everything else is read entry by entry. -/
theorem value_eq (x : Vec Ideal S50000x128 .f32) (src dst : Vec Ideal S800000 .i32) (Ws0 Wn0 : Vec Ideal S128x128 .f32)
    (b0 : Vec Ideal S128 .f32) (Ws1 Wn1 : Vec Ideal S128x128 .f32) (b1 : Vec Ideal S128 .f32)
    (Ws2 Wn2 : Vec Ideal S128x64 .f32) (b2 : Vec Ideal S64 .f32) :
    val_main_v62 (F := Ideal) x src dst Ws0 Wn0 b0 Ws1 Wn1 b1 Ws2 Wn2 b2
      = outR (n := 50000) (K := 128) (d := 64) (hid2 x src dst Ws0 Wn0 b0 Ws1 Wn1 b1)
          (aggR (hid2 x src dst Ws0 Wn0 b0 Ws1 Wn1 b1) src dst) (degR dst) Ws2 Wn2 b2 := by
  rw [layer3, layer2, layer1]

/-- The same for the term the reference's run states its result at: the run from a memory `m` ends with the result
    array at the output layer of the argument arrays `m` holds. -/
theorem result_eq (m : (ℓ : Loc nD τ sig) → Buf (Elt Ideal) ℓ) (c : Dev nD) :
    Cert.ReferenceIdeal.Value.res_main_v62 (F := Ideal) m c
      = outR (n := 50000) (K := 128) (d := 64)
          (hid2 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)))
          (aggR (hid2 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)))
            (m ((c.tc : Thread nD τ).loc main_arg1)) (m ((c.tc : Thread nD τ).loc main_arg2)))
          (degR (m ((c.tc : Thread nD τ).loc main_arg2)))
          (m ((c.tc : Thread nD τ).loc main_arg9)) (m ((c.tc : Thread nD τ).loc main_arg10))
          (m ((c.tc : Thread nD τ).loc main_arg11)) :=
  (val_main_v62_eq m c).trans (value_eq _ _ _ _ _ _ _ _ _ _ _ _)

end Cert.Sage.Ref

end
-- ==== Proof.BridgeR.lean ====
/-
  The reference program's host operations (the edge columns, the neighbour sum, the degree column) identified with the
  specification's functions, and with the kernel program's own spelling of the same columns.
-/
import proofs.«145628_j19851338842541_2_alg».proof.Proof.Gen.ReferenceIdeal
import proofs.«145628_j19851338842541_2_alg».proof.Proof.BridgeK

noncomputable section

open scoped BigOperators

namespace Cert.Sage.BridgeR

open Idealize.ShloMosaic Idealize.ShloMosaic.ValueIdx Cert.Sage Cert.ReferenceIdeal Cert.ReferenceIdeal.Facts₀ Cert.ReferenceIdeal.Facts

/-- The destination words as a column. -/
def dstCol (dst : IVec S800000 32) : Col 800000 := broadcastInDim S800000x1 ![0] bcast_S800000_S800000x1_0 dst

/-- The source words, a negative one wrapped around by the number of rows, as a column. -/
def srcCol (src : IVec S800000 32) : Col 800000 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The degree column: the number of edges into each node (from zero) clamped below at one. -/
def degCol (dst : IVec S800000 32) : Mat 50000 1 :=
  broadcastInDim S50000x1 ![0] bcast_S50000_S50000x1_0
    (maximumf (Host.scatterAdd (F := Ideal) (φ := .f32) scatter_S50000_S800000x1_S800000_n_0_0_1
        (broadcastInDim S50000 ![] bcast_S_S50000 (constant (F := Ideal) S_ .f32 0x00000000#32)) (dstCol dst)
        (broadcastInDim S800000 ![] bcast_S_S800000 (constant (F := Ideal) S_ .f32 0x3F800000#32)))
      (broadcastInDim S50000 ![] bcast_S_S50000 (constant (F := Ideal) S_ .f32 0x3F800000#32)))

/-- The two programs spell the same columns. -/
theorem dstCol_eq (dst : IVec S800000 32) : dstCol dst = BridgeK.dstCol dst := rfl
theorem srcCol_eq (src : IVec S800000 32) : srcCol src = BridgeK.srcCol src := rfl
theorem degCol_eq (dst : IVec S800000 32) : degCol dst = BridgeK.degCol dst := rfl

/-- The neighbour sum of 128-wide rows. -/
theorem agg128_eq (h : Mat 50000 128) (src dst : IVec S800000 32) :
    Host.scatterAdd (F := Ideal) (φ := .f32) scatter_S50000x128_S800000x1_S800000x128_1_0_0_1
        (broadcastInDim S50000x128 ![] bcast_S_S50000x128 (constant (F := Ideal) S_ .f32 0x00000000#32)) (dstCol dst)
        (Host.gather gather_S50000x128_S800000x1_S800000x128_1_0_n_n_0_1_1128 (h : FVec Ideal S50000x128 .f32) (srcCol src))
      = segSum (by decide) (BridgeK.dstCol dst) (BridgeK.srcCol src) h :=
  Ops.agg_eq_segSum (N := 50000) (E := 800000) (C := 128) (by decide) _ rfl rfl rfl rfl _ rfl rfl rfl rfl rfl rfl rfl _ h (dstCol dst) (srcCol src)

end Cert.Sage.BridgeR

end
-- ==== Proof.Final.lean ====
/-
  The two programs compute one array.

  The kernel program's result, walked back through its four regions and host stretches, is the last layer (neighbour weight
  before the aggregation, every mean a product with the reciprocal degree) over two rectified layers; the reference's result is
  the last layer (weight after the aggregation, every mean a quotient by the degree) over the same two layers.  Both
  programs build the same edge columns, the same degree column and the same neighbour sums, so on real inputs the two results are
  equal by `network_eq`.
-/
import proofs.«145628_j19851338842541_2_alg».proof.Proof.Glue
import proofs.«145628_j19851338842541_2_alg».proof.Proof.RefValue
import proofs.«145628_j19851338842541_2_alg».proof.Proof.BridgeR
import proofs.«145628_j19851338842541_2_alg».proof.Proof.SpecLaws

noncomputable section

namespace Cert.Sage.Final

open Idealize.ShloMosaic Idealize.ShloMosaic.ValueIdx Cert.Sage Cert.Lib.RealSums

/-- The edge words. -/
abbrev Words : Type := (⟨1, ![800000]⟩ : Shape).Idx → BitVec 32

/-- The reference's neighbour sum is `segSum` over the columns both programs build. -/
theorem aggR_eq (h : Mat 50000 128) (src dst : Words) :
    Ref.aggR h src dst = segSum (by decide) (BridgeK.dstCol dst) (BridgeK.srcCol src) h :=
  BridgeR.agg128_eq h src dst

/-- The reference's degree column is the kernel program's. -/
theorem degR_eq (dst : Words) : Ref.degR dst = BridgeK.degCol dst := rfl

/-- THE TWO RESULTS, over the same twelve arrays with real float entries. -/
theorem kernel_eq_reference (x : Mat 50000 128) (src dst : Words) (Ws0 Wn0 : Mat 128 128) (b0 : Row 128)
    (Ws1 Wn1 : Mat 128 128) (b1 : Row 128) (Ws2 Wn2 : Mat 128 64) (b2 : Row 64)
    (hx : ∀ i, Fin' (x i)) (hWs0 : ∀ i, Fin' (Ws0 i)) (hWn0 : ∀ i, Fin' (Wn0 i)) (hb0 : ∀ i, Fin' (b0 i))
    (hWs1 : ∀ i, Fin' (Ws1 i)) (hWn1 : ∀ i, Fin' (Wn1 i)) (hb1 : ∀ i, Fin' (b1 i)) (hWn2 : ∀ i, Fin' (Wn2 i)) :
    outK (n := 50000) (K := 128) (d := 64)
        (layerK (n := 50000) (K := 128) (d := 128)
          (layerK (n := 50000) (K := 128) (d := 128) x (KChain.aggK x src dst) (KChain.invK dst) (KChain.cvt Ws0) (KChain.cvt Wn0) (KChain.rowK128 b0))
          (KChain.aggK (layerK (n := 50000) (K := 128) (d := 128) x (KChain.aggK x src dst) (KChain.invK dst) (KChain.cvt Ws0) (KChain.cvt Wn0) (KChain.rowK128 b0)) src dst)
          (KChain.invK dst) (KChain.cvt Ws1) (KChain.cvt Wn1) (KChain.rowK128 b1))
        (KChain.aggK64 (projK (n := 50000) (K := 128) (d := 64)
          (layerK (n := 50000) (K := 128) (d := 128)
            (layerK (n := 50000) (K := 128) (d := 128) x (KChain.aggK x src dst) (KChain.invK dst) (KChain.cvt Ws0) (KChain.cvt Wn0) (KChain.rowK128 b0))
            (KChain.aggK (layerK (n := 50000) (K := 128) (d := 128) x (KChain.aggK x src dst) (KChain.invK dst) (KChain.cvt Ws0) (KChain.cvt Wn0) (KChain.rowK128 b0)) src dst)
            (KChain.invK dst) (KChain.cvt Ws1) (KChain.cvt Wn1) (KChain.rowK128 b1))
          (KChain.cvt Wn2)) src dst)
        (KChain.invK dst) (KChain.cvt Ws2) (KChain.rowK64 b2)
      = outR (n := 50000) (K := 128) (d := 64) (Ref.hid2 x src dst Ws0 Wn0 b0 Ws1 Wn1 b1)
          (Ref.aggR (Ref.hid2 x src dst Ws0 Wn0 b0 Ws1 Wn1 b1) src dst) (Ref.degR dst) Ws2 Wn2 b2 := by
  simp only [Ref.hid2, Ref.hid1, Glue.aggK_eq, Glue.aggK64_eq, aggR_eq]
  exact network_eq (by decide) (BridgeK.dstCol dst) (BridgeK.srcCol src) x (BridgeK.invCol dst) (BridgeK.degCol dst)
    Ws0 Wn0 Ws1 Wn1 (KChain.rowK128 b0) (KChain.rowK128 b1) b0 b1 Ws2 Wn2 (KChain.rowK64 b2) b2
    hx hWs0 hWn0 (fun _ => hb0 _) hWs1 hWn1 (fun _ => hb1 _) hWn2
    (BridgeK.invCol_eq dst) (BridgeK.degCol_ne_zero dst) (Glue.rowK128_apply b0) (Glue.rowK128_apply b1) (Glue.rowK64_apply b2)

end Cert.Sage.Final

end
-- ==== Proof.lean ====
/-
  A three-layer mean-aggregation graph convolution (GraphSAGE: 50000 nodes, 800000 edges, features 128 → 128 → 128 → 64): the
  Pallas program against its jnp reference, on the extended reals.

  Each layer is `out = h · Ws + mean · Wn + b`, where `mean[p]` is the sum of the rows `h[src e]` over the edges `e` with
  destination `p`, divided by the in-degree of `p` clamped below at 1; the first two layers end in a rectifier.  The
  reference divides the neighbour sum by the degree.  The kernel program computes the reciprocal `1 / degree` once on the host
  and multiplies by it inside each dense kernel; for the last layer it applies the neighbour weight `Wn` to the rows FIRST
  (a kernel of its own), aggregates the 64-wide projected rows, and scales the sum by the reciprocal degree inside the last kernel.

  * The degree is at least one, so it is not zero, and off zero a quotient IS the product with the inverse: the first two layers
    of the two programs are the same function of the same arrays, with nothing asked of the entries.
  * The last layer exchanges a sum over edges with a sum over the contracted feature axis and moves the reciprocal degree across
    both.  On the extended reals that is valid when the summands are reals: the precondition makes every float argument real,
    sums, products and maxima of reals are real, so the second layer's rows are real, and the exchange holds (`network_eq`).
  * The gathers and scatter-adds are the same host operations in both programs, over the same edge columns: a gathered row is
    always a row of the operand (the row number is clamped), an out-of-range destination adds nowhere, so nothing is asked of the
    integer arguments.

  The kernel program's result is read off its run region by region: each of the four kernels writes, block of 5000 rows by
  block, the restriction of one whole-array function of its operand arrays; the host stretches between them are read as
  whole-array terms; the walk from the result buffer back to the launch memory composes them.  The reference's result is its
  run's term, read layer by layer.  The three frames are the generated runs; no rewrite was applied by the idealization.
-/
import proofs.«145628_j19851338842541_2_alg».proof.Defs
import proofs.«145628_j19851338842541_2_alg».proof.Proof.Gen.Kernel
import proofs.«145628_j19851338842541_2_alg».proof.Proof.Gen.Kernel.Skeleton
import proofs.«145628_j19851338842541_2_alg».proof.Proof.Gen.Kernel.Launch
import proofs.«145628_j19851338842541_2_alg».proof.Proof.Gen.Kernel.Points
import proofs.«145628_j19851338842541_2_alg».proof.Proof.Gen.Kernel.Frame
import proofs.«145628_j19851338842541_2_alg».proof.Proof.Gen.KernelIdeal
import proofs.«145628_j19851338842541_2_alg».proof.Proof.Gen.KernelIdeal.Skeleton
import proofs.«145628_j19851338842541_2_alg».proof.Proof.Gen.KernelIdeal.Launch
import proofs.«145628_j19851338842541_2_alg».proof.Proof.Gen.KernelIdeal.Points
import proofs.«145628_j19851338842541_2_alg».proof.Proof.Gen.KernelIdeal.Frame
import proofs.«145628_j19851338842541_2_alg».proof.Proof.Gen.ReferenceIdeal
import proofs.«145628_j19851338842541_2_alg».proof.Proof.Gen.Pre_finite_inputs
import proofs.«145628_j19851338842541_2_alg».proof.Proof.Gen.ReferenceIdeal.Read
import proofs.«145628_j19851338842541_2_alg».proof.Proof.KRun
import proofs.«145628_j19851338842541_2_alg».proof.Proof.KChain
import proofs.«145628_j19851338842541_2_alg».proof.Proof.KLayer
import proofs.«145628_j19851338842541_2_alg».proof.Proof.KTail
import proofs.«145628_j19851338842541_2_alg».proof.Proof.Finite
import proofs.«145628_j19851338842541_2_alg».proof.Proof.Final
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- The idealized program runs and leaves its arguments as launched. -/
theorem frame_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On real float inputs the two programs end with the same result array: the kernel program's is the walk back from its result
    buffer (the four regions' whole-array values over the host stretches), the reference's its run's term read layer by layer,
    and the two are one function of the arguments (`kernel_eq_reference`). -/
theorem algebraic : Cert.algebraic_KernelIdeal_ReferenceIdeal := by
  intro m ρ m' ρ' hpre hagree
  refine ⟨fun c => Cert.KernelIdeal.Gen.W8 m ρ c (Proc.devRef .tc Cert.KernelIdeal.main_v57), Cert.Sage.KRun.run_named m ρ, ?_⟩
  refine (θ_run Cert.ReferenceIdeal.defs _ _).mono (fun _ h c => ⟨(h c).1.trans ?_, (h c).2⟩)
    (Cert.ReferenceIdeal.Value.run (F := Ideal) m' ρ')
  obtain ⟨hx, hWs0, hWn0, hb0, hWs1, hWn1, hb1, -, hWn2, -⟩ := Cert.Sage.Finite.of_pre _ _ _ _ _ _ _ _ _ _ _ _ (hpre c)
  obtain ⟨a0, a1, a2, a3, a4, a5, a6, a7, a8, a9, a10, a11⟩ := hagree c
  rw [Cert.Sage.Ref.result_eq m' c, a0, a1, a2, a3, a4, a5, a6, a7, a8, a9, a10, a11]
  refine Eq.trans ?_ (Cert.Sage.KChain.result_eq m ρ c Cert.Sage.KLayer.arr0 Cert.Sage.KLayer.arr1 Cert.Sage.KTail.arr2
    Cert.Sage.KTail.arr3).symm
  exact (Cert.Sage.Final.kernel_eq_reference _ _ _ _ _ _ _ _ _ _ _ _ hx hWs0 hWn0 hb0 hWs1 hWn1 hb1 hWn2).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
